-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x512 : Shape := ⟨2, ![150000, 512]⟩
abbrev S400000 : Shape := ⟨1, ![400000]⟩
abbrev S160000 : Shape := ⟨1, ![160000]⟩
abbrev S256x512 : Shape := ⟨2, ![256, 512]⟩
abbrev S256 : Shape := ⟨1, ![256]⟩
abbrev S20x256 : Shape := ⟨2, ![20, 256]⟩
abbrev S20 : Shape := ⟨1, ![20]⟩
abbrev S_ : Shape := ⟨0, ![]⟩

class Facts : Prop where
  bcast_S_S150000x512 : S_.BroadcastsInDim S150000x512 (![] : Fin 0 → Fin S150000x512.rank)
  reducesTo_S150000x512_S_d0_1 : S150000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg8 : FVec F S20x256 .f32) (main_arg9 : FVec F S20 .f32) (main_arg10 : FVec F S20x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S20x256 .f32 := Host.absf main_arg8
  let main_cst_6 : FVec F S_ .f32 := constant S_ .f32 0x7F800000#32
  let main_v20 : FVec F S20x256 .f32 := broadcastInDim S20x256 ![] bcast_S_S20x256 main_cst_6
  let main_v21 : IVec S20x256 1 := cmpf .olt main_v19 main_v20
  let main_c_7 : IVec S_ 1 := constantI S_ 1 1#1
  let main_v22 : IVec S_ 1 := (fun x v => Host.reduce IntOp.andi x v reducesTo_S20x256_S_d0_1 h_S_) main_v21 main_c_7
  let main_v23 : IVec S_ 1 := andi main_v18 main_v22
  let main_v24 : FVec F S20 .f32 := Host.absf main_arg9
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x256 .f32 := Host.absf main_arg10
  let main_cst_10 : FVec F S_ .f32 := constant S_ .f32 0x7F800000#32
  let main_v30 : FVec F S20x256 .f32 := broadcastInDim S20x256 ![] bcast_S_S20x256 main_cst_10
  let main_v31 : IVec S20x256 1 := cmpf .olt main_v29 main_v30
  let main_c_11 : IVec S_ 1 := constantI S_ 1 1#1
  let main_v32 : IVec S_ 1 := (fun x v => Host.reduce IntOp.andi x v reducesTo_S20x256_S_d0_1 h_S_) main_v31 main_c_11
  let main_v33 : IVec S_ 1 := andi main_v28 main_v32
  main_v33

def fn {F : FTy → Type} [FloatOps F] (main_arg0 : FVec F S150000x512 .f32) (main_arg1 : IVec S400000 32) (main_arg2 : IVec S400000 32) (main_arg3 : IVec S160000 32) (main_arg4 : IVec S160000 32) (main_arg5 : FVec F S256x512 .f32) (main_arg6 : FVec F S256 .f32) (main_arg7 : FVec F S256x512 .f32) (main_arg8 : FVec F S20x256 .f32) (main_arg9 : FVec F S20 .f32) (main_arg10 : FVec F S20x256 .f32) : IVec S_ 1 :=
  let main_v0 : FVec F S150000x512 .f32 := Host.absf main_arg0
  let main_cst : FVec F S_ .f32 := constant S_ .f32 0x7F800000#32
  let main_v1 : FVec F S150000x512 .f32 := broadcastInDim S150000x512 ![] bcast_S_S150000x512 main_cst
  let main_v2 : IVec S150000x512 1 := cmpf .olt main_v0 main_v1
  let main_c : IVec S_ 1 := constantI S_ 1 1#1
  let main_v3 : IVec S_ 1 := (fun x v => Host.reduce IntOp.andi x v reducesTo_S150000x512_S_d0_1 h_S_) main_v2 main_c
  let main_v4 : FVec F S256x512 .f32 := Host.absf main_arg5
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg7
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg8 main_arg9 main_arg10 main_v13 main_v16
-- ==== Kernel.lean ====
abbrev S150000x512 : Shape := ⟨2, ![150000, 512]⟩
abbrev S400000 : Shape := ⟨1, ![400000]⟩
abbrev S160000 : Shape := ⟨1, ![160000]⟩
abbrev S256x512 : Shape := ⟨2, ![256, 512]⟩
abbrev S256 : Shape := ⟨1, ![256]⟩
abbrev S20x256 : Shape := ⟨2, ![20, 256]⟩
abbrev S20 : Shape := ⟨1, ![20]⟩
abbrev S512x256 : Shape := ⟨2, ![512, 256]⟩
abbrev S1x256 : Shape := ⟨2, ![1, 256]⟩
abbrev S256x20 : Shape := ⟨2, ![256, 20]⟩
abbrev S1x20 : Shape := ⟨2, ![1, 20]⟩
abbrev S_ : Shape := ⟨0, ![]⟩
abbrev S256x128 : Shape := ⟨2, ![256, 128]⟩
abbrev S150000x256 : Shape := ⟨2, ![150000, 256]⟩
abbrev S3000x512 : Shape := ⟨2, ![3000, 512]⟩
abbrev S3000x256 : Shape := ⟨2, ![3000, 256]⟩
abbrev S400000x1 : Shape := ⟨2, ![400000, 1]⟩
abbrev S400000x256 : Shape := ⟨2, ![400000, 256]⟩
abbrev S30000x256 : Shape := ⟨2, ![30000, 256]⟩
abbrev S30000 : Shape := ⟨1, ![30000]⟩
abbrev S30000x1 : Shape := ⟨2, ![30000, 1]⟩
abbrev S30000x512 : Shape := ⟨2, ![30000, 512]⟩
abbrev S2000x256 : Shape := ⟨2, ![2000, 256]⟩
abbrev S2000x1 : Shape := ⟨2, ![2000, 1]⟩
abbrev S2000x512 : Shape := ⟨2, ![2000, 512]⟩
abbrev S30000x128 : Shape := ⟨2, ![30000, 128]⟩
abbrev S2000x128 : Shape := ⟨2, ![2000, 128]⟩
abbrev S30000x20 : Shape := ⟨2, ![30000, 20]⟩
abbrev S160000x1 : Shape := ⟨2, ![160000, 1]⟩
abbrev S160000x20 : Shape := ⟨2, ![160000, 20]⟩
abbrev S8192x20 : Shape := ⟨2, ![8192, 20]⟩
abbrev S8192 : Shape := ⟨1, ![8192]⟩
abbrev S8192x1 : Shape := ⟨2, ![8192, 1]⟩
abbrev S8192x256 : Shape := ⟨2, ![8192, 256]⟩
abbrev S2048x20 : Shape := ⟨2, ![2048, 20]⟩
abbrev S2048x1 : Shape := ⟨2, ![2048, 1]⟩
abbrev S2048x256 : Shape := ⟨2, ![2048, 256]⟩
abbrev S2048 : Shape := ⟨1, ![2048]⟩

abbrev nBuf : Space → Nat
  | .hbm => 67
  | .vmem => 30
  | .smem => 0
  | _ => 0

abbrev bufTy : (tb : Table) → Fin (tcTables nBuf tb) → BufTy
  | .hbm, ⟨0, _⟩ => ⟨S150000x512, .f32⟩
  | .hbm, ⟨1, _⟩ => ⟨S400000, .i32⟩
  | .hbm, ⟨2, _⟩ => ⟨S400000, .i32⟩
  | .hbm, ⟨3, _⟩ => ⟨S160000, .i32⟩
  | .hbm, ⟨4, _⟩ => ⟨S160000, .i32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S20x256, .f32⟩
  | .hbm, ⟨9, _⟩ => ⟨S20, .f32⟩
  | .hbm, ⟨10, _⟩ => ⟨S20x256, .f32⟩
  | .hbm, ⟨11, _⟩ => ⟨S512x256, .f32⟩
  | .hbm, ⟨12, _⟩ => ⟨S512x256, .f32⟩
  | .hbm, ⟨13, _⟩ => ⟨S1x256, .f32⟩
  | .hbm, ⟨14, _⟩ => ⟨S256x20, .f32⟩
  | .hbm, ⟨15, _⟩ => ⟨S1x20, .f32⟩
  | .hbm, ⟨16, _⟩ => ⟨S256x20, .f32⟩
  | .hbm, ⟨17, _⟩ => ⟨S_, .i32⟩
  | .hbm, ⟨18, _⟩ => ⟨S_, .f32⟩
  | .hbm, ⟨19, _⟩ => ⟨S256x128, .f32⟩
  | .hbm, ⟨20, _⟩ => ⟨S150000x256, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x256, .f32⟩
  | .hbm, ⟨30, _⟩ => ⟨S_, .f32⟩
  | .hbm, ⟨31, _⟩ => ⟨S30000x256, .f32⟩
  | .hbm, ⟨32, _⟩ => ⟨S400000x1, .i32⟩
  | .hbm, ⟨33, _⟩ => ⟨S30000x256, .f32⟩
  | .hbm, ⟨34, _⟩ => ⟨S_, .f32⟩
  | .hbm, ⟨35, _⟩ => ⟨S400000, .f32⟩
  | .hbm, ⟨36, _⟩ => ⟨S_, .f32⟩
  | .hbm, ⟨37, _⟩ => ⟨S30000, .f32⟩
  | .hbm, ⟨38, _⟩ => ⟨S400000x1, .i32⟩
  | .hbm, ⟨39, _⟩ => ⟨S30000, .f32⟩
  | .hbm, ⟨40, _⟩ => ⟨S30000x1, .f32⟩
  | .hbm, ⟨41, _⟩ => ⟨S30000x512, .f32⟩
  | .hbm, ⟨42, _⟩ => ⟨S30000x256, .f32⟩
  | .hbm, ⟨43, _⟩ => ⟨S30000x128, .f32⟩
  | .hbm, ⟨44, _⟩ => ⟨S30000x20, .f32⟩
  | .hbm, ⟨45, _⟩ => ⟨S_, .i32⟩
  | .hbm, ⟨46, _⟩ => ⟨S160000, .i32⟩
  | .hbm, ⟨47, _⟩ => ⟨S160000, .i1⟩
  | .hbm, ⟨48, _⟩ => ⟨S_, .i32⟩
  | .hbm, ⟨49, _⟩ => ⟨S160000, .i32⟩
  | .hbm, ⟨50, _⟩ => ⟨S160000, .i32⟩
  | .hbm, ⟨51, _⟩ => ⟨S160000, .i32⟩
  | .hbm, ⟨52, _⟩ => ⟨S160000x1, .i32⟩
  | .hbm, ⟨53, _⟩ => ⟨S160000x20, .f32⟩
  | .hbm, ⟨54, _⟩ => ⟨S_, .f32⟩
  | .hbm, ⟨55, _⟩ => ⟨S8192x20, .f32⟩
  | .hbm, ⟨56, _⟩ => ⟨S160000x1, .i32⟩
  | .hbm, ⟨57, _⟩ => ⟨S8192x20, .f32⟩
  | .hbm, ⟨58, _⟩ => ⟨S_, .f32⟩
  | .hbm, ⟨59, _⟩ => ⟨S160000, .f32⟩
  | .hbm, ⟨60, _⟩ => ⟨S_, .f32⟩
  | .hbm, ⟨61, _⟩ => ⟨S8192, .f32⟩
  | .hbm, ⟨62, _⟩ => ⟨S160000x1, .i32⟩
  | .hbm, ⟨63, _⟩ => ⟨S8192, .f32⟩
  | .hbm, ⟨64, _⟩ => ⟨S8192x1, .f32⟩
  | .hbm, ⟨65, _⟩ => ⟨S8192x256, .f32⟩
  | .hbm, ⟨66, _⟩ => ⟨S8192x20, .f32⟩
  | .local _ .vmem, ⟨0, _⟩ => ⟨S3000x512, .f32⟩
  | .local _ .vmem, ⟨1, _⟩ => ⟨S3000x512, .f32⟩
  | .local _ .vmem, ⟨2, _⟩ => ⟨S512x256, .f32⟩
  | .local _ .vmem, ⟨3, _⟩ => ⟨S3000x256, .f32⟩
  | .local _ .vmem, ⟨4, _⟩ => ⟨S3000x256, .f32⟩
  | .local _ .vmem, ⟨5, _⟩ => ⟨S2000x256, .f32⟩
  | .local _ .vmem, ⟨6, _⟩ => ⟨S2000x256, .f32⟩
  | .local _ .vmem, ⟨7, _⟩ => ⟨S2000x1, .f32⟩
  | .local _ .vmem, ⟨8, _⟩ => ⟨S2000x1, .f32⟩
  | .local _ .vmem, ⟨9, _⟩ => ⟨S2000x512, .f32⟩
  | .local _ .vmem, ⟨10, _⟩ => ⟨S2000x512, .f32⟩
  | .local _ .vmem, ⟨11, _⟩ => ⟨S512x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x128, .f32⟩
  | .local _ .vmem, ⟨18, _⟩ => ⟨S2000x128, .f32⟩
  | .local _ .vmem, ⟨19, _⟩ => ⟨S2000x128, .f32⟩
  | .local _ .vmem, ⟨20, _⟩ => ⟨S2048x20, .f32⟩
  | .local _ .vmem, ⟨21, _⟩ => ⟨S2048x20, .f32⟩
  | .local _ .vmem, ⟨22, _⟩ => ⟨S2048x1, .f32⟩
  | .local _ .vmem, ⟨23, _⟩ => ⟨S2048x1, .f32⟩
  | .local _ .vmem, ⟨24, _⟩ => ⟨S2048x256, .f32⟩
  | .local _ .vmem, ⟨25, _⟩ => ⟨S2048x256, .f32⟩
  | .local _ .vmem, ⟨26, _⟩ => ⟨S256x20, .f32⟩
  | .local _ .vmem, ⟨27, _⟩ => ⟨S1x20, .f32⟩
  | .local _ .vmem, ⟨28, _⟩ => ⟨S2048x20, .f32⟩
  | .local _ .vmem, ⟨29, _⟩ => ⟨S2048x20, .f32⟩
  | _, _ => ⟨S150000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x20 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x20 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x20 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S256x512_S512x256_1_0 : S256x512.Transposes [1, 0] S512x256
  shapeCasts_S256_S1x256 : S256.ShapeCasts S1x256
  transposes_S20x256_S256x20_1_0 : S20x256.Transposes [1, 0] S256x20
  shapeCasts_S20_S1x20 : S20.ShapeCasts S1x20
  pads_S256x20_S256x128_000_01080 : S256x20.Pads (![0, 0] : Fin 2 → Nat) ![0, 108] ![0, 0] S256x128
  h_S_ : 0 < S_.numel
  inb_S3000x512_S3000x512_0_0 : ∀ a, (![0, 0] : Fin 2 → Nat) a + S3000x512.size a ≤ S3000x512.size a
  h_S3000x512 : 0 < S3000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S3000x256_S3000x256_0_0 : ∀ a, (![0, 0] : Fin 2 → Nat) a + S3000x256.size a ≤ S3000x256.size a
  h_S3000x256 : 0 < S3000x256.numel
  bcast_S_S400000 : S_.BroadcastsInDim S400000 (![] : Fin 0 → Fin S400000.rank)
  bcast_S400000_S400000x1_0 : S400000.BroadcastsInDim S400000x1 (![0] : Fin 1 → Fin S400000x1.rank)
  bcast_S_S30000x256 : S_.BroadcastsInDim S30000x256 (![] : Fin 0 → Fin S30000x256.rank)
  bcast_S_S30000 : S_.BroadcastsInDim S30000 (![] : Fin 0 → Fin S30000.rank)
  shapeCasts_S30000_S30000x1 : S30000.ShapeCasts S30000x1
  slices_S150000x512_S30000x512_0_0 : S150000x512.Slices ![0, 0] S30000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S30000x128_S30000x20_0_0 : S30000x128.Slices ![0, 0] S30000x20
  bcast_S_S160000 : S_.BroadcastsInDim S160000 (![] : Fin 0 → Fin S160000.rank)
  bcast_S160000_S160000x1_0 : S160000.BroadcastsInDim S160000x1 (![0] : Fin 1 → Fin S160000x1.rank)
  bcast_S_S8192x20 : S_.BroadcastsInDim S8192x20 (![] : Fin 0 → Fin S8192x20.rank)
  bcast_S_S8192 : S_.BroadcastsInDim S8192 (![] : Fin 0 → Fin S8192.rank)
  shapeCasts_S8192_S8192x1 : S8192.ShapeCasts S8192x1
  slices_S30000x256_S8192x256_0_0 : S30000x256.Slices ![0, 0] S8192x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x20_S2048x20_0_0 : ∀ a, (![0, 0] : Fin 2 → Nat) a + S2048x20.size a ≤ S2048x20.size a
  h_S2048x20 : 0 < S2048x20.numel
  shapeCasts_S2048x20_S2048x20 : S2048x20.ShapeCasts S2048x20
  broadcasts_S2048x1_S2048x20 : S2048x1.Broadcasts S2048x20
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2048x20 : S1x20.Broadcasts S2048x20
  reduces_S2048x20_S2048 : S2048x20.Reduces [1] S2048
  shapeCasts_S2048_S2048x1 : S2048.ShapeCasts S2048x1
  dot_S3000x512_S512x256_S3000x256_1_0_0_1_n_n_wf : DotDims.WF S3000x512 S512x256 S3000x256 [1] [0] [0] [1] [] []
  gather_S150000x256_S400000x1_S400000x256_1_0_n_n_0_1_1256_wf : GatherDims.WF S150000x256 S400000x1 S400000x256 [1] [0] [] [0] [] 1 ![1, 256]
  scatter_S30000x256_S400000x1_S400000x256_1_0_0_1_wf : ScatterDims.WF S30000x256 S400000x1 S400000x256 [1] [0] [0] 1
  scatter_S30000_S400000x1_S400000_n_0_0_1_wf : ScatterDims.WF S30000 S400000x1 S400000 [] [0] [0] 1
  dot_S2000x512_S512x256_S2000x256_1_0_0_1_n_n_wf : DotDims.WF S2000x512 S512x256 S2000x256 [1] [0] [0] [1] [] []
  dot_S2000x256_S256x128_S2000x128_1_0_0_1_n_n_wf : DotDims.WF S2000x256 S256x128 S2000x128 [1] [0] [0] [1] [] []
  gather_S30000x20_S160000x1_S160000x20_1_0_n_n_0_1_120_wf : GatherDims.WF S30000x20 S160000x1 S160000x20 [1] [0] [] [0] [] 1 ![1, 20]
  scatter_S8192x20_S160000x1_S160000x20_1_0_0_1_wf : ScatterDims.WF S8192x20 S160000x1 S160000x20 [1] [0] [0] 1
  scatter_S8192_S160000x1_S160000_n_0_0_1_wf : ScatterDims.WF S8192 S160000x1 S160000 [] [0] [0] 1
  dot_S2048x256_S256x20_S2048x20_1_0_0_1_n_n_wf : DotDims.WF S2048x256 S256x20 S2048x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x512.size a ≤ S150000x512.size a
  hwx0_0 : ∀ i : grid0.Coords, EltTy.bits .f32 = 32 ∨ (Rect.block (s := S150000x512) S3000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x256.size a ≤ S150000x256.size a
  hwx0_2 : ∀ i : grid0.Coords, EltTy.bits .f32 = 32 ∨ (Rect.block (s := S150000x256) S3000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S30000x256.size a
  hwx1_0 : ∀ i : grid1.Coords, EltTy.bits .f32 = 32 ∨ (Rect.block (s := S30000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S30000x1.size a
  hwx1_1 : ∀ i : grid1.Coords, EltTy.bits .f32 = 32 ∨ (Rect.block (s := S30000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S30000x512.size a
  hwx1_2 : ∀ i : grid1.Coords, EltTy.bits .f32 = 32 ∨ (Rect.block (s := S30000x512) S2000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S30000x256.size a
  hwx1_5 : ∀ i : grid1.Coords, EltTy.bits .f32 = 32 ∨ (Rect.block (s := S30000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S30000x256.size a
  hwx2_0 : ∀ i : grid2.Coords, EltTy.bits .f32 = 32 ∨ (Rect.block (s := S30000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S30000x128.size a
  hwx2_2 : ∀ i : grid2.Coords, EltTy.bits .f32 = 32 ∨ (Rect.block (s := S30000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x20.size a ≤ S8192x20.size a
  hwx3_0 : ∀ i : grid3.Coords, EltTy.bits .f32 = 32 ∨ (Rect.block (s := S8192x20) S2048x20.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S8192x1.size a
  hwx3_1 : ∀ i : grid3.Coords, EltTy.bits .f32 = 32 ∨ (Rect.block (s := S8192x1) S2048x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S8192x256.size a
  hwx3_2 : ∀ i : grid3.Coords, EltTy.bits .f32 = 32 ∨ (Rect.block (s := S8192x256) S2048x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x20.size a ≤ S256x20.size a
  hwx3_3 : ∀ i : grid3.Coords, EltTy.bits .f32 = 32 ∨ (Rect.block (s := S256x20) S256x20.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x20.size a ≤ S1x20.size a
  hwx3_4 : ∀ i : grid3.Coords, EltTy.bits .f32 = 32 ∨ (Rect.block (s := S1x20) S1x20.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x20.size a ≤ S8192x20.size a
  hwx3_5 : ∀ i : grid3.Coords, EltTy.bits .f32 = 32 ∨ (Rect.block (s := S8192x20) S2048x20.size (cc3_transform_5 i) (hinb3_5 i)).WholeWords (EltTy.packing .f32)

variable [Facts₀]

def dot_S3000x512_S512x256_S3000x256_1_0_0_1_n_n : DotDims S3000x512 S512x256 S3000x256 where
  lhsContracting := [1]
  rhsContracting := [0]
  lhsNonContracting := [0]
  rhsNonContracting := [1]
  lhsBatch := []
  rhsBatch := []
  wf := dot_S3000x512_S512x256_S3000x256_1_0_0_1_n_n_wf
def gather_S150000x256_S400000x1_S400000x256_1_0_n_n_0_1_1256 : GatherDims S150000x256 S400000x1 S400000x256 where
  offsetDims := [1]
  collapsedSliceDims := [0]
  operandBatchingDims := []
  startIndicesBatchingDims := []
  startIndexMap := [0]
  indexVectorDim := 1
  sliceSizes := ![1, 256]
  wf := gather_S150000x256_S400000x1_S400000x256_1_0_n_n_0_1_1256_wf
def scatter_S30000x256_S400000x1_S400000x256_1_0_0_1 : ScatterDims S30000x256 S400000x1 S400000x256 where
  updateWindowDims := [1]
  insertedWindowDims := [0]
  scatterDimsToOperandDims := [0]
  indexVectorDim := 1
  wf := scatter_S30000x256_S400000x1_S400000x256_1_0_0_1_wf
def scatter_S30000_S400000x1_S400000_n_0_0_1 : ScatterDims S30000 S400000x1 S400000 where
  updateWindowDims := []
  insertedWindowDims := [0]
  scatterDimsToOperandDims := [0]
  indexVectorDim := 1
  wf := scatter_S30000_S400000x1_S400000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S30000x20_S160000x1_S160000x20_1_0_n_n_0_1_120 : GatherDims S30000x20 S160000x1 S160000x20 where
  offsetDims := [1]
  collapsedSliceDims := [0]
  operandBatchingDims := []
  startIndicesBatchingDims := []
  startIndexMap := [0]
  indexVectorDim := 1
  sliceSizes := ![1, 20]
  wf := gather_S30000x20_S160000x1_S160000x20_1_0_n_n_0_1_120_wf
def scatter_S8192x20_S160000x1_S160000x20_1_0_0_1 : ScatterDims S8192x20 S160000x1 S160000x20 where
  updateWindowDims := [1]
  insertedWindowDims := [0]
  scatterDimsToOperandDims := [0]
  indexVectorDim := 1
  wf := scatter_S8192x20_S160000x1_S160000x20_1_0_0_1_wf
def scatter_S8192_S160000x1_S160000_n_0_0_1 : ScatterDims S8192 S160000x1 S160000 where
  updateWindowDims := []
  insertedWindowDims := [0]
  scatterDimsToOperandDims := [0]
  indexVectorDim := 1
  wf := scatter_S8192_S160000x1_S160000_n_0_0_1_wf
def dot_S2048x256_S256x20_S2048x20_1_0_0_1_n_n : DotDims S2048x256 S256x20 S2048x20 where
  lhsContracting := [1]
  rhsContracting := [0]
  lhsNonContracting := [0]
  rhsNonContracting := [1]
  lhsBatch := []
  rhsBatch := []
  wf := dot_S2048x256_S256x20_S2048x20_1_0_0_1_n_n_wf

abbrev win0_0 : Pipeline.Window sig grid0 :=
  Pipeline.Window.ofSpec (Memref.whole main_arg0) S3000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S2048x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S256x20.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x20.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S2048x20.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S150000x512 : Shape := ⟨2, ![150000, 512]⟩
abbrev S400000 : Shape := ⟨1, ![400000]⟩
abbrev S160000 : Shape := ⟨1, ![160000]⟩
abbrev S256x512 : Shape := ⟨2, ![256, 512]⟩
abbrev S256 : Shape := ⟨1, ![256]⟩
abbrev S20x256 : Shape := ⟨2, ![20, 256]⟩
abbrev S20 : Shape := ⟨1, ![20]⟩
abbrev S30000x512 : Shape := ⟨2, ![30000, 512]⟩
abbrev S_ : Shape := ⟨0, ![]⟩
abbrev S400000x1 : Shape := ⟨2, ![400000, 1]⟩
abbrev S400000x512 : Shape := ⟨2, ![400000, 512]⟩
abbrev S30000 : Shape := ⟨1, ![30000]⟩
abbrev S30000x1 : Shape := ⟨2, ![30000, 1]⟩
abbrev S512x256 : Shape := ⟨2, ![512, 256]⟩
abbrev S30000x256 : Shape := ⟨2, ![30000, 256]⟩
abbrev S1x256 : Shape := ⟨2, ![1, 256]⟩
abbrev S8192x256 : Shape := ⟨2, ![8192, 256]⟩
abbrev S160000x1 : Shape := ⟨2, ![160000, 1]⟩
abbrev S160000x256 : Shape := ⟨2, ![160000, 256]⟩
abbrev S8192 : Shape := ⟨1, ![8192]⟩
abbrev S8192x1 : Shape := ⟨2, ![8192, 1]⟩
abbrev S256x20 : Shape := ⟨2, ![256, 20]⟩
abbrev S8192x20 : Shape := ⟨2, ![8192, 20]⟩
abbrev S1x20 : Shape := ⟨2, ![1, 20]⟩

abbrev nBuf : Space → Nat
  | .hbm => 97
  | .vmem => 0
  | .smem => 0
  | _ => 0

abbrev bufTy : (tb : Table) → Fin (tcTables nBuf tb) → BufTy
  | .hbm, ⟨0, _⟩ => ⟨S150000x512, .f32⟩
  | .hbm, ⟨1, _⟩ => ⟨S400000, .i32⟩
  | .hbm, ⟨2, _⟩ => ⟨S400000, .i32⟩
  | .hbm, ⟨3, _⟩ => ⟨S160000, .i32⟩
  | .hbm, ⟨4, _⟩ => ⟨S160000, .i32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S20x256, .f32⟩
  | .hbm, ⟨9, _⟩ => ⟨S20, .f32⟩
  | .hbm, ⟨10, _⟩ => ⟨S20x256, .f32⟩
  | .hbm, ⟨11, _⟩ => ⟨S30000x512, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S_, .f32⟩
  | .hbm, ⟨22, _⟩ => ⟨S30000x512, .f32⟩
  | .hbm, ⟨23, _⟩ => ⟨S400000x1, .i32⟩
  | .hbm, ⟨24, _⟩ => ⟨S30000x512, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S30000, .f32⟩
  | .hbm, ⟨29, _⟩ => ⟨S400000x1, .i32⟩
  | .hbm, ⟨30, _⟩ => ⟨S30000, .f32⟩
  | .hbm, ⟨31, _⟩ => ⟨S_, .f32⟩
  | .hbm, ⟨32, _⟩ => ⟨S30000, .f32⟩
  | .hbm, ⟨33, _⟩ => ⟨S30000, .f32⟩
  | .hbm, ⟨34, _⟩ => ⟨S30000x1, .f32⟩
  | .hbm, ⟨35, _⟩ => ⟨S30000x512, .f32⟩
  | .hbm, ⟨36, _⟩ => ⟨S30000x512, .f32⟩
  | .hbm, ⟨37, _⟩ => ⟨S512x256, .f32⟩
  | .hbm, ⟨38, _⟩ => ⟨S30000x256, .f32⟩
  | .hbm, ⟨39, _⟩ => ⟨S1x256, .f32⟩
  | .hbm, ⟨40, _⟩ => ⟨S30000x256, .f32⟩
  | .hbm, ⟨41, _⟩ => ⟨S30000x256, .f32⟩
  | .hbm, ⟨42, _⟩ => ⟨S512x256, .f32⟩
  | .hbm, ⟨43, _⟩ => ⟨S30000x256, .f32⟩
  | .hbm, ⟨44, _⟩ => ⟨S30000x256, .f32⟩
  | .hbm, ⟨45, _⟩ => ⟨S_, .f32⟩
  | .hbm, ⟨46, _⟩ => ⟨S30000x256, .f32⟩
  | .hbm, ⟨47, _⟩ => ⟨S30000x256, .f32⟩
  | .hbm, ⟨48, _⟩ => ⟨S8192x256, .f32⟩
  | .hbm, ⟨49, _⟩ => ⟨S_, .i32⟩
  | .hbm, ⟨50, _⟩ => ⟨S160000, .i32⟩
  | .hbm, ⟨51, _⟩ => ⟨S160000, .i1⟩
  | .hbm, ⟨52, _⟩ => ⟨S_, .i32⟩
  | .hbm, ⟨53, _⟩ => ⟨S160000, .i32⟩
  | .hbm, ⟨54, _⟩ => ⟨S160000, .i32⟩
  | .hbm, ⟨55, _⟩ => ⟨S160000, .i32⟩
  | .hbm, ⟨56, _⟩ => ⟨S160000x1, .i32⟩
  | .hbm, ⟨57, _⟩ => ⟨S160000x256, .f32⟩
  | .hbm, ⟨58, _⟩ => ⟨S_, .f32⟩
  | .hbm, ⟨59, _⟩ => ⟨S8192x256, .f32⟩
  | .hbm, ⟨60, _⟩ => ⟨S160000x1, .i32⟩
  | .hbm, ⟨61, _⟩ => ⟨S8192x256, .f32⟩
  | .hbm, ⟨62, _⟩ => ⟨S_, .f32⟩
  | .hbm, ⟨63, _⟩ => ⟨S160000, .f32⟩
  | .hbm, ⟨64, _⟩ => ⟨S_, .f32⟩
  | .hbm, ⟨65, _⟩ => ⟨S8192, .f32⟩
  | .hbm, ⟨66, _⟩ => ⟨S160000x1, .i32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1, .f32⟩
  | .hbm, ⟨72, _⟩ => ⟨S8192x256, .f32⟩
  | .hbm, ⟨73, _⟩ => ⟨S8192x256, .f32⟩
  | .hbm, ⟨74, _⟩ => ⟨S256x20, .f32⟩
  | .hbm, ⟨75, _⟩ => ⟨S8192x20, .f32⟩
  | .hbm, ⟨76, _⟩ => ⟨S1x20, .f32⟩
  | .hbm, ⟨77, _⟩ => ⟨S8192x20, .f32⟩
  | .hbm, ⟨78, _⟩ => ⟨S8192x20, .f32⟩
  | .hbm, ⟨79, _⟩ => ⟨S256x20, .f32⟩
  | .hbm, ⟨80, _⟩ => ⟨S8192x20, .f32⟩
  | .hbm, ⟨81, _⟩ => ⟨S8192x20, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192x1, .f32⟩
  | .hbm, ⟨88, _⟩ => ⟨S8192x20, .f32⟩
  | .hbm, ⟨89, _⟩ => ⟨S8192x20, .f32⟩
  | .hbm, ⟨90, _⟩ => ⟨S8192x20, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1, .f32⟩
  | .hbm, ⟨95, _⟩ => ⟨S8192x20, .f32⟩
  | .hbm, ⟨96, _⟩ => ⟨S8192x20, .f32⟩
  | _, _ => ⟨S150000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v57 : Ref sig .tc := ⟨.hbm, 96, rfl⟩

abbrev nD : Nat := 1
abbrev τ : Topo := Topo.v7x

variable {F : FTy → Type} [FloatOps F]

class Facts₀ : Prop where
  slices_S150000x512_S30000x512_0_0 : S150000x512.Slices ![0, 0] S30000x512
  bcast_S_S400000 : S_.BroadcastsInDim S400000 (![] : Fin 0 → Fin S400000.rank)
  bcast_S400000_S400000x1_0 : S400000.BroadcastsInDim S400000x1 (![0] : Fin 1 → Fin S400000x1.rank)
  bcast_S_S30000x512 : S_.BroadcastsInDim S30000x512 (![] : Fin 0 → Fin S30000x512.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x512_0_1 : S30000x1.BroadcastsInDim S30000x512 (![0, 1] : Fin 2 → Fin S30000x512.rank)
  transposes_S256x512_S512x256_1_0 : S256x512.Transposes [1, 0] S512x256
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  slices_S30000x256_S8192x256_0_0 : S30000x256.Slices ![0, 0] S8192x256
  bcast_S_S160000 : S_.BroadcastsInDim S160000 (![] : Fin 0 → Fin S160000.rank)
  bcast_S160000_S160000x1_0 : S160000.BroadcastsInDim S160000x1 (![0] : Fin 1 → Fin S160000x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S20x256_S256x20_1_0 : S20x256.Transposes [1, 0] S256x20
  bcast_S20_S1x20_1 : S20.BroadcastsInDim S1x20 (![1] : Fin 1 → Fin S1x20.rank)
  bcast_S1x20_S8192x20_0_1 : S1x20.BroadcastsInDim S8192x20 (![0, 1] : Fin 2 → Fin S8192x20.rank)
  reducesTo_S8192x20_S8192_d1 : S8192x20.ReducesTo [1] S8192
  h_S_ : 0 < S_.numel
  bcast_S8192x1_S8192x20_0_1 : S8192x1.BroadcastsInDim S8192x20 (![0, 1] : Fin 2 → Fin S8192x20.rank)
  gather_S150000x512_S400000x1_S400000x512_1_0_n_n_0_1_1512_wf : GatherDims.WF S150000x512 S400000x1 S400000x512 [1] [0] [] [0] [] 1 ![1, 512]
  scatter_S30000x512_S400000x1_S400000x512_1_0_0_1_wf : ScatterDims.WF S30000x512 S400000x1 S400000x512 [1] [0] [0] 1
  scatter_S30000_S400000x1_S400000_n_0_0_1_wf : ScatterDims.WF S30000 S400000x1 S400000 [] [0] [0] 1
  dot_S30000x512_S512x256_S30000x256_1_0_0_1_n_n_wf : DotDims.WF S30000x512 S512x256 S30000x256 [1] [0] [0] [1] [] []
  gather_S30000x256_S160000x1_S160000x256_1_0_n_n_0_1_1256_wf : GatherDims.WF S30000x256 S160000x1 S160000x256 [1] [0] [] [0] [] 1 ![1, 256]
  scatter_S8192x256_S160000x1_S160000x256_1_0_0_1_wf : ScatterDims.WF S8192x256 S160000x1 S160000x256 [1] [0] [0] 1
  scatter_S8192_S160000x1_S160000_n_0_0_1_wf : ScatterDims.WF S8192 S160000x1 S160000 [] [0] [0] 1
  dot_S8192x256_S256x20_S8192x20_1_0_0_1_n_n_wf : DotDims.WF S8192x256 S256x20 S8192x20 [1] [0] [0] [1] [] []

variable [Facts₀]

def gather_S150000x512_S400000x1_S400000x512_1_0_n_n_0_1_1512 : GatherDims S150000x512 S400000x1 S400000x512 where
  offsetDims := [1]
  collapsedSliceDims := [0]
  operandBatchingDims := []
  startIndicesBatchingDims := []
  startIndexMap := [0]
  indexVectorDim := 1
  sliceSizes := ![1, 512]
  wf := gather_S150000x512_S400000x1_S400000x512_1_0_n_n_0_1_1512_wf
def scatter_S30000x512_S400000x1_S400000x512_1_0_0_1 : ScatterDims S30000x512 S400000x1 S400000x512 where
  updateWindowDims := [1]
  insertedWindowDims := [0]
  scatterDimsToOperandDims := [0]
  indexVectorDim := 1
  wf := scatter_S30000x512_S400000x1_S400000x512_1_0_0_1_wf
def scatter_S30000_S400000x1_S400000_n_0_0_1 : ScatterDims S30000 S400000x1 S400000 where
  updateWindowDims := []
  insertedWindowDims := [0]
  scatterDimsToOperandDims := [0]
  indexVectorDim := 1
  wf := scatter_S30000_S400000x1_S400000_n_0_0_1_wf
def dot_S30000x512_S512x256_S30000x256_1_0_0_1_n_n : DotDims S30000x512 S512x256 S30000x256 where
  lhsContracting := [1]
  rhsContracting := [0]
  lhsNonContracting := [0]
  rhsNonContracting := [1]
  lhsBatch := []
  rhsBatch := []
  wf := dot_S30000x512_S512x256_S30000x256_1_0_0_1_n_n_wf
def gather_S30000x256_S160000x1_S160000x256_1_0_n_n_0_1_1256 : GatherDims S30000x256 S160000x1 S160000x256 where
  offsetDims := [1]
  collapsedSliceDims := [0]
  operandBatchingDims := []
  startIndicesBatchingDims := []
  startIndexMap := [0]
  indexVectorDim := 1
  sliceSizes := ![1, 256]
  wf := gather_S30000x256_S160000x1_S160000x256_1_0_n_n_0_1_1256_wf
def scatter_S8192x256_S160000x1_S160000x256_1_0_0_1 : ScatterDims S8192x256 S160000x1 S160000x256 where
  updateWindowDims := [1]
  insertedWindowDims := [0]
  scatterDimsToOperandDims := [0]
  indexVectorDim := 1
  wf := scatter_S8192x256_S160000x1_S160000x256_1_0_0_1_wf
def scatter_S8192_S160000x1_S160000_n_0_0_1 : ScatterDims S8192 S160000x1 S160000 where
  updateWindowDims := []
  insertedWindowDims := [0]
  scatterDimsToOperandDims := [0]
  indexVectorDim := 1
  wf := scatter_S8192_S160000x1_S160000_n_0_0_1_wf
def dot_S8192x256_S256x20_S8192x20_1_0_0_1_n_n : DotDims S8192x256 S256x20 S8192x20 where
  lhsContracting := [1]
  rhsContracting := [0]
  lhsNonContracting := [0]
  rhsNonContracting := [1]
  lhsBatch := []
  rhsBatch := []
  wf := dot_S8192x256_S256x20_S8192x20_1_0_0_1_n_n_wf

class Facts : Prop extends Facts₀ where

variable [Facts]
-- ==== Proof.KRun.lean ====
import proofs.«135385_j52905407152435_2_alg».proof.Proof.Gen.KernelIdeal.Frame

/-!
# The idealized kernel's run with its result named

Every weakly fair execution of the program terminates, the argument arrays end as launched, and the result
array ends at the last region's exit contents: the contents of the unscoped buffers threaded through the four
host stretches and the four regions, from the launch memory.
-/

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Sage.KRun

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.Spec.lean ====
import Idealize.ShloMosaic.PureOps.Ideal
import Idealize.ShloMosaic.PureOps.Ideal.Laws
import Idealize.ShloMosaic.Lib.ValueIdx
import proofs.«135385_j52905407152435_2_alg».proof.Proof.LibReal
import proofs.«135385_j52905407152435_2_alg».proof.Proof.LibRowIndex

/-!
# A two-layer mean-aggregating graph convolution, as functions of its arrays

A layer takes a feature table X with N rows, E edges given by a column of source rows and a column of target
rows, and for each of T ≤ N targets p the number cnt p of edges landing on p. Target p receives the mean over
the edges landing on it of the source rows (the sum divided by max (cnt p) 1), projected by a matrix Wl, plus a
bias, plus its own row of X projected by a matrix Wr.

The mean can be taken before the projection (`convAt`) or the projection applied to every row of the table
first and the projected rows averaged (`kconvAt`). The two agree when the table, the projection and the count
are real numbers, projection being linear; on the extended reals the exchange needs that, since a product does
not distribute over a sum that meets both infinities.

The network is a layer into 256 features followed by max (·) 0, a second layer into 20 classes over the first
8192 targets, and a log-softmax along each row: out − m − log Σ exp (out − m), m the row's maximum.
-/

noncomputable section

namespace Cert.Sage

open Idealize.ShloMosaic Idealize.ShloMosaic.ValueIdx Cert.RowIndex Cert.GinMath
open scoped BigOperators

/-- The words of 0.0 and of 1.0, as the extended reals they denote (never evaluated: both programs use the same words). -/
abbrev w0 : EReal := Ideal.ofBits .f32 0x00000000#32
abbrev w1 : EReal := Ideal.ofBits .f32 0x3F800000#32

/-- The edges whose target index, read signed, is the row p. -/
def landing {E : Nat} (d : IVec ⟨2, ![E, 1]⟩ 32) (p : Nat) : Finset (Fin E) :=
  Finset.univ.filter fun e : Fin E => (d (ix2 e (0 : Fin 1))).toInt = (p : ℤ)

section Layer

variable {N T E K C : Nat}

/-- Row n of the table projected by Wl, at column q. -/
def projAt (X : (⟨2, ![N, K]⟩ : Shape).Idx → EReal) (Wl : (⟨2, ![K, C]⟩ : Shape).Idx → EReal) (n : Fin N) (q : Fin C) : EReal :=
  ∑ k : Fin K, X (ix2 n k) * Wl (ix2 k q)

/-- A layer at target p and output column q: average the source rows, then project. -/
def convAt (hN : 0 < N) (hT : T ≤ N) (X : (⟨2, ![N, K]⟩ : Shape).Idx → EReal) (s d : IVec ⟨2, ![E, 1]⟩ 32)
    (cnt : (⟨1, ![T]⟩ : Shape).Idx → EReal) (Wl : (⟨2, ![K, C]⟩ : Shape).Idx → EReal)
    (b : (⟨1, ![C]⟩ : Shape).Idx → EReal) (Wr : (⟨2, ![K, C]⟩ : Shape).Idx → EReal) (p : Fin T) (q : Fin C) : EReal :=
  ((∑ k : Fin K, Ideal.div (w0 + ∑ e ∈ landing d p.val, X (ix2 (clampRow N hN (s (ix2 e (0 : Fin 1)))) k))
        (max (cnt (ix1 p)) w1) * Wl (ix2 k q))
      + b (ix1 q))
    + ∑ k : Fin K, X (ix2 (Fin.castLE hT p) k) * Wr (ix2 k q)

/-- The same layer with every row of the table projected first and the projected rows averaged. -/
def kconvAt (hN : 0 < N) (hT : T ≤ N) (X : (⟨2, ![N, K]⟩ : Shape).Idx → EReal) (s d : IVec ⟨2, ![E, 1]⟩ 32)
    (cnt : (⟨1, ![T]⟩ : Shape).Idx → EReal) (Wl : (⟨2, ![K, C]⟩ : Shape).Idx → EReal)
    (b : (⟨1, ![C]⟩ : Shape).Idx → EReal) (Wr : (⟨2, ![K, C]⟩ : Shape).Idx → EReal) (p : Fin T) (q : Fin C) : EReal :=
  (Ideal.div (w0 + ∑ e ∈ landing d p.val, projAt X Wl (clampRow N hN (s (ix2 e (0 : Fin 1)))) q) (max (cnt (ix1 p)) w1)
      + b (ix1 q))
    + ∑ k : Fin K, X (ix2 (Fin.castLE hT p) k) * Wr (ix2 k q)

end Layer

/-! ## The network's arrays -/

/-- The hidden features: the first layer, then max (·) 0. -/
def hid (x : (⟨2, ![150000, 512]⟩ : Shape).Idx → EReal) (s1 d1 : IVec ⟨2, ![400000, 1]⟩ 32)
    (cnt1 : (⟨1, ![30000]⟩ : Shape).Idx → EReal) (Wl1 : (⟨2, ![512, 256]⟩ : Shape).Idx → EReal)
    (b1 : (⟨1, ![256]⟩ : Shape).Idx → EReal) (Wr1 : (⟨2, ![512, 256]⟩ : Shape).Idx → EReal) :
    (⟨2, ![30000, 256]⟩ : Shape).Idx → EReal :=
  fun i => max (convAt (N := 150000) (T := 30000) (by norm_num) (by norm_num) x s1 d1 cnt1 Wl1 b1 Wr1 (i 0) (i 1)) w0

/-- The hidden features, projecting first. -/
def khid (x : (⟨2, ![150000, 512]⟩ : Shape).Idx → EReal) (s1 d1 : IVec ⟨2, ![400000, 1]⟩ 32)
    (cnt1 : (⟨1, ![30000]⟩ : Shape).Idx → EReal) (Wl1 : (⟨2, ![512, 256]⟩ : Shape).Idx → EReal)
    (b1 : (⟨1, ![256]⟩ : Shape).Idx → EReal) (Wr1 : (⟨2, ![512, 256]⟩ : Shape).Idx → EReal) :
    (⟨2, ![30000, 256]⟩ : Shape).Idx → EReal :=
  fun i => max (kconvAt (N := 150000) (T := 30000) (by norm_num) (by norm_num) x s1 d1 cnt1 Wl1 b1 Wr1 (i 0) (i 1)) w0

/-- The class scores before the softmax: the second layer over the hidden features. -/
def out2 (h : (⟨2, ![30000, 256]⟩ : Shape).Idx → EReal) (s2 d2 : IVec ⟨2, ![160000, 1]⟩ 32)
    (cnt2 : (⟨1, ![8192]⟩ : Shape).Idx → EReal) (Wl2 : (⟨2, ![256, 20]⟩ : Shape).Idx → EReal)
    (b2 : (⟨1, ![20]⟩ : Shape).Idx → EReal) (Wr2 : (⟨2, ![256, 20]⟩ : Shape).Idx → EReal) :
    (⟨2, ![8192, 20]⟩ : Shape).Idx → EReal :=
  fun i => convAt (N := 30000) (T := 8192) (by norm_num) (by norm_num) h s2 d2 cnt2 Wl2 b2 Wr2 (i 0) (i 1)

/-- The class scores, projecting first. -/
def kout2 (h : (⟨2, ![30000, 256]⟩ : Shape).Idx → EReal) (s2 d2 : IVec ⟨2, ![160000, 1]⟩ 32)
    (cnt2 : (⟨1, ![8192]⟩ : Shape).Idx → EReal) (Wl2 : (⟨2, ![256, 20]⟩ : Shape).Idx → EReal)
    (b2 : (⟨1, ![20]⟩ : Shape).Idx → EReal) (Wr2 : (⟨2, ![256, 20]⟩ : Shape).Idx → EReal) :
    (⟨2, ![8192, 20]⟩ : Shape).Idx → EReal :=
  fun i => kconvAt (N := 30000) (T := 8192) (by norm_num) (by norm_num) h s2 d2 cnt2 Wl2 b2 Wr2 (i 0) (i 1)

/-- A row's maximum, folded from the word of −∞. -/
def rowMax (row : Fin 20 → EReal) : EReal :=
  (Finset.univ : Finset (Fin 20)).fold max (Ideal.ofBits .f32 0xFF800000#32) row

/-- The log-softmax of a row at column q. -/
def lsmAt (row : Fin 20 → EReal) (q : Fin 20) : EReal :=
  (row q - rowMax row) - Ideal.log (∑ j : Fin 20, Ideal.exp (row j - rowMax row))

/-- The log-softmax along every row of the scores. -/
def lsm (o : (⟨2, ![8192, 20]⟩ : Shape).Idx → EReal) : (⟨2, ![8192, 20]⟩ : Shape).Idx → EReal :=
  fun i => lsmAt (fun j => o (ix2 (i 0) j)) (i 1)

theorem hid_apply (x s1 d1 cnt1 Wl1 b1 Wr1) (p : Fin 30000) (q : Fin 256) :
    hid x s1 d1 cnt1 Wl1 b1 Wr1 (ix2 p q)
      = max (convAt (N := 150000) (T := 30000) (by norm_num) (by norm_num) x s1 d1 cnt1 Wl1 b1 Wr1 p q) w0 := rfl

theorem khid_apply (x s1 d1 cnt1 Wl1 b1 Wr1) (p : Fin 30000) (q : Fin 256) :
    khid x s1 d1 cnt1 Wl1 b1 Wr1 (ix2 p q)
      = max (kconvAt (N := 150000) (T := 30000) (by norm_num) (by norm_num) x s1 d1 cnt1 Wl1 b1 Wr1 p q) w0 := rfl

theorem out2_apply (h s2 d2 cnt2 Wl2 b2 Wr2) (p : Fin 8192) (q : Fin 20) :
    out2 h s2 d2 cnt2 Wl2 b2 Wr2 (ix2 p q)
      = convAt (N := 30000) (T := 8192) (by norm_num) (by norm_num) h s2 d2 cnt2 Wl2 b2 Wr2 p q := rfl

theorem kout2_apply (h s2 d2 cnt2 Wl2 b2 Wr2) (p : Fin 8192) (q : Fin 20) :
    kout2 h s2 d2 cnt2 Wl2 b2 Wr2 (ix2 p q)
      = kconvAt (N := 30000) (T := 8192) (by norm_num) (by norm_num) h s2 d2 cnt2 Wl2 b2 Wr2 p q := rfl

theorem lsm_apply (o) (p : Fin 8192) (q : Fin 20) : lsm o (ix2 p q) = lsmAt (fun j => o (ix2 p j)) q := rfl

end Cert.Sage

end
-- ==== Proof.KSpec.lean ====
import proofs.«135385_j52905407152435_2_alg».proof.Proof.Spec

/-!
# The four regions' arrays as functions of the arrays they read

The program projects first: one region multiplies the feature table by the transposed projection; the edge
gather and scatter-add then run on the projected rows; a second region finishes the first layer from the
aggregate, the count column, the targets' features, the second projection and the bias row; the same two steps
repeat for the second layer, whose finishing region also takes the log-softmax of each row.
-/

noncomputable section

namespace Cert.Sage

open Idealize.ShloMosaic Idealize.ShloMosaic.ValueIdx
open scoped BigOperators

/-- The product of a table with a matrix, entry by entry. -/
def mm {M K N : Nat} (X : (⟨2, ![M, K]⟩ : Shape).Idx → EReal) (W : (⟨2, ![K, N]⟩ : Shape).Idx → EReal) :
    (⟨2, ![M, N]⟩ : Shape).Idx → EReal := fun i => projAt X W (i 0) (i 1)

theorem mm_apply {M K N : Nat} (X : (⟨2, ![M, K]⟩ : Shape).Idx → EReal) (W : (⟨2, ![K, N]⟩ : Shape).Idx → EReal)
    (p : Fin M) (q : Fin N) : mm X W (ix2 p q) = projAt X W p q := rfl

/-- The first layer from its five arrays, the table already projected and aggregated: the aggregate A divided by
    max (count) 1, plus the bias row B, plus the targets' own features Xs projected by Wr; then max (·) 0. -/
def layer1 (A : (⟨2, ![30000, 256]⟩ : Shape).Idx → EReal) (Cn : (⟨2, ![30000, 1]⟩ : Shape).Idx → EReal)
    (Xs : (⟨2, ![30000, 512]⟩ : Shape).Idx → EReal) (Wr : (⟨2, ![512, 256]⟩ : Shape).Idx → EReal)
    (B : (⟨2, ![1, 256]⟩ : Shape).Idx → EReal) : (⟨2, ![30000, 256]⟩ : Shape).Idx → EReal :=
  fun i => max ((Ideal.div (A (ix2 (i 0) (i 1))) (max (Cn (ix2 (i 0) (0 : Fin 1))) w1) + B (ix2 (0 : Fin 1) (i 1)))
            + ∑ k : Fin 512, Xs (ix2 (i 0) k) * Wr (ix2 k (i 1))) w0

theorem layer1_apply (A Cn Xs Wr B) (p : Fin 30000) (q : Fin 256) :
    layer1 A Cn Xs Wr B (ix2 p q)
      = max ((Ideal.div (A (ix2 p q)) (max (Cn (ix2 p (0 : Fin 1))) w1) + B (ix2 (0 : Fin 1) q))
            + ∑ k : Fin 512, Xs (ix2 p k) * Wr (ix2 k q)) w0 := rfl

/-- A target's class scores before the softmax, from the five arrays, the hidden table already projected and
    aggregated: the aggregate A divided by max (count) 1, plus the bias row B, plus the target's own hidden
    features Hs projected by Wr. -/
def scores2 (A : (⟨2, ![8192, 20]⟩ : Shape).Idx → EReal) (Cn : (⟨2, ![8192, 1]⟩ : Shape).Idx → EReal)
    (Hs : (⟨2, ![8192, 256]⟩ : Shape).Idx → EReal) (Wr : (⟨2, ![256, 20]⟩ : Shape).Idx → EReal)
    (B : (⟨2, ![1, 20]⟩ : Shape).Idx → EReal) (p : Fin 8192) (j : Fin 20) : EReal :=
  (Ideal.div (A (ix2 p j)) (max (Cn (ix2 p (0 : Fin 1))) w1) + B (ix2 (0 : Fin 1) j)) + ∑ k : Fin 256, Hs (ix2 p k) * Wr (ix2 k j)

/-- The network's head: the log-softmax of each target's scores. -/
def head2 (A : (⟨2, ![8192, 20]⟩ : Shape).Idx → EReal) (Cn : (⟨2, ![8192, 1]⟩ : Shape).Idx → EReal)
    (Hs : (⟨2, ![8192, 256]⟩ : Shape).Idx → EReal) (Wr : (⟨2, ![256, 20]⟩ : Shape).Idx → EReal)
    (B : (⟨2, ![1, 20]⟩ : Shape).Idx → EReal) : (⟨2, ![8192, 20]⟩ : Shape).Idx → EReal :=
  fun i => lsmAt (fun j => scores2 A Cn Hs Wr B (i 0) j) (i 1)

theorem head2_apply (A Cn Hs Wr B) (p : Fin 8192) (q : Fin 20) :
    head2 A Cn Hs Wr B (ix2 p q) = lsmAt (fun j => scores2 A Cn Hs Wr B p j) q := rfl

end Cert.Sage

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.Payload.lean ====
import proofs.«135385_j52905407152435_2_alg».proof.Proof.Gen.KernelIdeal.Skeleton
import proofs.«135385_j52905407152435_2_alg».proof.Proof.Spec
import proofs.«135385_j52905407152435_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-!
# The four kernel bodies' arithmetic, read at an entry

Each body computes one block of its output from the blocks it loads. Read at row p and column q:
the two dense bodies give the product's entry, the sum over k of left (p, k) times right (k, q); the first layer's
body gives max (agg (p, q) / max (cnt p) 1 + bias q + Σ_k feat (p, k) · W (k, q)) 0; the second layer's body gives the
log-softmax along row p of the same expression without the outer max.

On the extended reals a change of float format is the identity, so the narrowing of the products' operands disappears.
-/

noncomputable section

namespace Cert.Sage.Pay

open Cert.KernelIdeal Cert.KernelIdeal.Gen Cert.Sage Idealize.ShloMosaic Idealize.ShloMosaic.ValueIdx
open scoped BigOperators

/-! ## The products' dimension numbers are the plain ones -/

theorem dot0_plain : dot_S3000x512_S512x256_S3000x256_1_0_0_1_n_n = DotDims.plain 3000 512 256 := rfl
theorem dot1_plain : dot_S2000x512_S512x256_S2000x256_1_0_0_1_n_n = DotDims.plain 2000 512 256 := rfl
theorem dot2_plain : dot_S2000x256_S256x128_S2000x128_1_0_0_1_n_n = DotDims.plain 2000 256 128 := rfl
theorem dot3_plain : dot_S2048x256_S256x20_S2048x20_1_0_0_1_n_n = DotDims.plain 2048 256 20 := rfl

/-! ## The two dense bodies -/

theorem pay0_apply (x0 : Vec Ideal S3000x512 .f32) (x1 : Vec Ideal S512x256 .f32) (p : Fin 3000) (q : Fin 256) :
    k0_pay1 x0 x1 (ix2 p q) = ∑ k : Fin 512, x0 (ix2 p k) * x1 (ix2 k q) := by
  unfold k0_pay1
  rw [shapeCast_self, dot0_plain]
  exact Cert.PlainDot.matmul_zero_apply 3000 512 256 none _ _ p q

theorem pay2_apply (x0 : Vec Ideal S2000x256 .f32) (x1 : Vec Ideal S256x128 .f32) (p : Fin 2000) (q : Fin 128) :
    k2_pay1 x0 x1 (ix2 p q) = ∑ k : Fin 256, x0 (ix2 p k) * x1 (ix2 k q) := by
  unfold k2_pay1
  rw [shapeCast_self, shapeCast_self, dot2_plain]
  exact Cert.PlainDot.matmul_zero_apply 2000 256 128 none _ _ p q

/-! ## A column broadcast over the lanes -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first layer's body -/

theorem pay1_apply (v0 : Vec Ideal S2000x1 .f32) (v4 : Vec Ideal S2000x256 .f32) (v8 : Vec Ideal S2000x512 .f32)
    (v11 : Vec Ideal S512x256 .f32) (v14 : Vec Ideal S1x256 .f32) (p : Fin 2000) (q : Fin 256) :
    k1_pay1 v0 v4 v8 v11 v14 (ix2 p q)
      = max ((Ideal.div (v4 (ix2 p q)) (max (v0 (ix2 p (0 : Fin 1))) w1) + v14 (ix2 (0 : Fin 1) q))
              + ∑ k : Fin 512, v8 (ix2 p k) * v11 (ix2 k q)) w0 := by
  unfold k1_pay1
  simp only [shapeCast_self]
  rw [maximumf_apply, addf_apply, addf_apply, divf_apply, broadcastTo_a1_ab_apply, maximumf_apply, broadcast_apply,
    broadcast_apply, broadcastTo_1b_ab_apply, dot1_plain, Cert.PlainDot.matmul_zero_apply]
  rfl

/-! ## The second layer's body: a row's maximum, a row's sum, and the log-softmax -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `p` of a [2048, 20] array with lane `k` put back is the entry `(p, k)`. -/
theorem lift_row (p : Fin 2048) (k : Fin 20) : reduces_S2048x20_S2048.lift (ix1 p) k = ix2 p k := by
  funext c
  refine Fin.ext ?_
  match c with
  | ⟨0, _⟩ => rfl
  | ⟨1, _⟩ => rfl

/-- The maximum along the lanes, at row `p`, is the row's maximum folded from the word of −∞. -/
theorem rowMax_apply (x : FVec Ideal S2048x20 .f32) (hφ : FKind.Formats .f32)
    (hmax : (0xFF800000#32 : BitVec 32) = FKind.maximumf.neutral .f32 hφ) (p : Fin 2048) :
    multiReduction .maximumf [1] S2048 x 0xFF800000#32 reduces_S2048x20_S2048 hφ hmax (ix1 p)
      = rowMax (fun j : Fin 20 => x (ix2 p j)) := by
  refine (Ideal.multiReduction_maximumf_single x 0xFF800000#32 reduces_S2048x20_S2048 hφ hmax (ix1 p)).trans ?_
  have e : (x ∘ reduces_S2048x20_S2048.lift (ix1 p) : Fin 20 → EReal) = fun j : Fin 20 => x (ix2 p j) :=
    funext fun k => congrArg x (lift_row p k)
  unfold rowMax
  exact congrArg (fun f : Fin 20 → EReal =>
    (Finset.univ : Finset (Fin 20)).fold max (Ideal.ofBits .f32 0xFF800000#32) f) e

/-- The sum along the lanes, at row `p`, is the sum of the row. -/
theorem rowSum_apply (x : FVec Ideal S2048x20 .f32) (hφ : FKind.Formats .f32)
    (hadd : (0x00000000#32 : BitVec 32) = FKind.add.neutral .f32 hφ) (p : Fin 2048) :
    multiReduction .add [1] S2048 x 0x00000000#32 reduces_S2048x20_S2048 hφ hadd (ix1 p)
      = ∑ j : Fin 20, x (ix2 p j) := by
  refine (Ideal.multiReduction_add_single x 0x00000000#32 reduces_S2048x20_S2048 hφ hadd (ix1 p)).trans ?_
  exact Finset.sum_congr rfl fun k _ => congrArg x (lift_row p k)

/-- An array minus its rows' maxima, at `(p, j)`. -/
theorem shifted_apply (x : FVec Ideal S2048x20 .f32) (hφ : FKind.Formats .f32)
    (hmax : (0xFF800000#32 : BitVec 32) = FKind.maximumf.neutral .f32 hφ) (p : Fin 2048) (j : Fin 20) :
    (subf x (broadcastTo S2048x20 (shapeCast S2048x1
        (multiReduction .maximumf [1] S2048 x 0xFF800000#32 reduces_S2048x20_S2048 hφ hmax) shapeCasts_S2048_S2048x1)
        broadcasts_S2048x1_S2048x20)) (ix2 p j)
      = x (ix2 p j) - rowMax (fun j : Fin 20 => x (ix2 p j)) := by
  rw [subf_apply, broadcastTo_a1_ab_apply, shapeCast_a_a1_apply, rowMax_apply]

/-- A shifted array minus the logarithm of its rows' sums of exponentials, at `(p, q)`. -/
theorem logsum_apply (y : FVec Ideal S2048x20 .f32) (hφ : FKind.Formats .f32)
    (hadd : (0x00000000#32 : BitVec 32) = FKind.add.neutral .f32 hφ) (p : Fin 2048) (q : Fin 20) :
    subf y (broadcastTo S2048x20 (log (shapeCast S2048x1
        (multiReduction .add [1] S2048 (exp y) 0x00000000#32 reduces_S2048x20_S2048 hφ hadd) shapeCasts_S2048_S2048x1))
        broadcasts_S2048x1_S2048x20) (ix2 p q)
      = y (ix2 p q) - Ideal.log (∑ j : Fin 20, Ideal.exp (y (ix2 p j))) := by
  rw [subf_apply, broadcastTo_a1_ab_apply]
  show _ - Ideal.log (shapeCast S2048x1
    (multiReduction .add [1] S2048 (exp y) 0x00000000#32 reduces_S2048x20_S2048 hφ hadd) shapeCasts_S2048_S2048x1
    (ix2 p (0 : Fin 1))) = _
  rw [shapeCast_a_a1_apply, rowSum_apply]
  rfl

/-- The log-softmax as the body computes it — subtract the row's maximum, then the logarithm of the row's sum of
    exponentials — at `(p, q)`. -/
theorem lsm_tail_apply (x : FVec Ideal S2048x20 .f32) (hφ : FKind.Formats .f32)
    (hmax : (0xFF800000#32 : BitVec 32) = FKind.maximumf.neutral .f32 hφ) (hφ' : FKind.Formats .f32)
    (hadd : (0x00000000#32 : BitVec 32) = FKind.add.neutral .f32 hφ') (p : Fin 2048) (q : Fin 20) :
    subf (subf x (broadcastTo S2048x20 (shapeCast S2048x1
          (multiReduction .maximumf [1] S2048 x 0xFF800000#32 reduces_S2048x20_S2048 hφ hmax) shapeCasts_S2048_S2048x1)
          broadcasts_S2048x1_S2048x20))
        (broadcastTo S2048x20 (log (shapeCast S2048x1
          (multiReduction .add [1] S2048
            (exp (subf x (broadcastTo S2048x20 (shapeCast S2048x1
                  (multiReduction .maximumf [1] S2048 x 0xFF800000#32 reduces_S2048x20_S2048 hφ hmax) shapeCasts_S2048_S2048x1)
                  broadcasts_S2048x1_S2048x20)))
            0x00000000#32 reduces_S2048x20_S2048 hφ' hadd) shapeCasts_S2048_S2048x1))
          broadcasts_S2048x1_S2048x20) (ix2 p q)
      = lsmAt (fun j : Fin 20 => x (ix2 p j)) q := by
  refine (logsum_apply _ hφ' hadd p q).trans ?_
  unfold lsmAt
  rw [shifted_apply x hφ hmax p q]
  refine congrArg (fun s : EReal => (x (ix2 p q) - rowMax (fun j : Fin 20 => x (ix2 p j))) - Ideal.log s)
    (Finset.sum_congr rfl fun j _ => ?_)
  rw [shifted_apply x hφ hmax p j]

theorem pay3_apply (v0 : Vec Ideal S2048x1 .f32) (v4 : Vec Ideal S2048x20 .f32) (v8 : Vec Ideal S2048x256 .f32)
    (v11 : Vec Ideal S256x20 .f32) (v14 : Vec Ideal S1x20 .f32) (p : Fin 2048) (q : Fin 20) :
    k3_pay1 v0 v4 v8 v11 v14 (ix2 p q)
      = lsmAt (fun j : Fin 20 => (Ideal.div (v4 (ix2 p j)) (max (v0 (ix2 p (0 : Fin 1))) w1) + v14 (ix2 (0 : Fin 1) j))
                  + ∑ k : Fin 256, v8 (ix2 p k) * v11 (ix2 k j)) q := by
  have hrow : ∀ j : Fin 20,
      addf (addf (divf v4 (broadcastTo S2048x20
              (maximumf v0 (broadcast S2048x1 (Scalar.ofBits (F := Ideal) .f32 0x3F800000#32)))
              broadcasts_S2048x1_S2048x20)) (broadcastTo S2048x20 v14 broadcasts_S1x20_S2048x20))
          (matmul dot_S2048x256_S256x20_S2048x20_1_0_0_1_n_n none (truncf .bf16 v8 bitsLt_bf16_f32)
            (truncf .bf16 v11 bitsLt_bf16_f32) (constant (F := Ideal) S2048x20 .f32 0x00000000#32)) (ix2 p j)
        = (Ideal.div (v4 (ix2 p j)) (max (v0 (ix2 p (0 : Fin 1))) w1) + v14 (ix2 (0 : Fin 1) j))
            + ∑ k : Fin 256, v8 (ix2 p k) * v11 (ix2 k j) := fun j => by
    rw [addf_apply, addf_apply, divf_apply, broadcastTo_a1_ab_apply, maximumf_apply, broadcast_apply,
      broadcastTo_1b_ab_apply, dot3_plain, Cert.PlainDot.matmul_zero_apply]
    rfl
  unfold k3_pay1
  simp only [shapeCast_self]
  refine (lsm_tail_apply _ (.inl rfl) rfl (.inl rfl) rfl p q).trans ?_
  exact congrArg (fun r : Fin 20 → EReal => lsmAt r q) (funext hrow)

end Cert.Sage.Pay

end
-- ==== Proof.Reg0.lean ====
import proofs.«135385_j52905407152435_2_alg».proof.Proof.Gen.KernelIdeal.Frame
import proofs.«135385_j52905407152435_2_alg».proof.Proof.KSpec
import proofs.«135385_j52905407152435_2_alg».proof.Proof.Payload
import Idealize.ShloMosaic.Lib.Pipeline.Value
import Idealize.ShloMosaic.Lib.ValueIdx

set_option maxRecDepth 16384

noncomputable section

namespace Cert.Sage.Reg0

open Idealize.ShloMosaic Idealize.ShloMosaic.TcCoe Idealize.ShloMosaic.ValueIdx Idealize.SL.Sem
open Idealize.ShloMosaic.Pipeline (Dat)
open Cert.KernelIdeal Cert.KernelIdeal.Gen Cert.Sage
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the table and the product move down by one block of rows per point, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point t is rows 3000 t … 3000 t + 2999. -/
theorem iblk_x (c : Dev nD) (t : Fin cfg0.N) (y : S3000x512.Idx) (i : S150000x512.Idx)
    (h0 : (i 0).val = 3000 * t.val + (y 0).val) (h1 : (i 1).val = (y 1).val) :
    (iblk0 V c 0 t : Vec Ideal S3000x512 .f32) y = (V c main_arg0 : S150000x512.Idx → EReal) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 3000 + 1 * (y 0).val = (i 0).val; rw [e0, h0]; omega
  | ⟨1, _⟩ => show win0_0.index t 1 * 512 + 1 * (y 1).val = (i 1).val; rw [e1, h1]; omega

/-- The matrix's block at every point is the matrix. -/
theorem iblk_w (c : Dev nD) (t : Fin cfg0.N) (y : S512x256.Idx) :
    (iblk0 V c 1 t : Vec Ideal S512x256 .f32) y = (V c main_v0 : S512x256.Idx → EReal) y := by
  obtain ⟨-, -, e2, e3, -, -⟩ := idx_facts t
  unfold iblk0
  rw [View.read_apply]
  show V c main_v0 _ = V c main_v0 _
  congr 1
  funext a
  apply Fin.ext
  match a with
  | ⟨0, _⟩ => show win0_1.index t 0 * 512 + 1 * (y 0).val = (y 0).val; rw [e2]; omega
  | ⟨1, _⟩ => show win0_1.index t 1 * 256 + 1 * (y 1).val = (y 1).val; rw [e3]; omega

/-- What point t writes back is block t of the product of the table with the matrix. -/
theorem flushed (c : Dev nD) (t : Fin cfg0.N) :
    (dat0 V c).flushed 2 t = ((cfg0.win 2).blk t).view.read (Elt Ideal) (mm (V c main_arg0) (V c main_v0)) := by
  show (cfg0.win 2).cut (grid0.coords t) ((dat0 V c).after 2 t) = _
  rw [after0_2]
  unfold out0_2
  rw [View.canon_unit_zero hz]
  simp only [View.ld_unit_zero (S := S3000x512) hz, View.ld_unit_zero (S := S512x256) hz]
  obtain ⟨-, -, -, -, e4, e5⟩ := idx_facts t
  funext j
  have hj0 : (j 0).val < 3000 := (j 0).isLt
  have hj1 : (j 1).val < 256 := (j 1).isLt
  rw [View.read_apply]
  show k0_pay1 (iblk0 V c 0 t) (iblk0 V c 1 t) ((cfg0.win 2).xinj (grid0.coords t) j) = mm (V c main_arg0) (V c main_v0) _
  have hx : (cfg0.win 2).xinj (grid0.coords t) j = ix2 (⟨(j 0).val, hj0⟩ : Fin 3000) (⟨(j 1).val, hj1⟩ : Fin 256) := by
    funext a; match a with
    | ⟨0, _⟩ => rfl
    | ⟨1, _⟩ => rfl
  rw [hx]
  refine (Cert.Sage.Pay.pay0_apply (iblk0 V c 0 t) (iblk0 V c 1 t) _ _).trans ?_
  unfold mm projAt
  refine Finset.sum_congr rfl fun k _ => ?_
  refine congrArg₂ (· * ·) ?_ ?_
  · refine iblk_x V c t _ _ ?_ ?_
    · show (((cfg0.win 2).blk t).view.emb j 0).val = 3000 * t.val + (j 0).val
      show win0_2.index t 0 * 3000 + 1 * (j 0).val = _
      rw [e4]; omega
    · rfl
  · refine (iblk_w V c t _).trans ?_
    congr 1
    funext a; apply Fin.ext
    match a with
    | ⟨0, _⟩ => rfl
    | ⟨1, _⟩ =>
      show (j 1).val = (((cfg0.win 2).blk t).view.emb j 1).val
      show (j 1).val = win0_2.index t 1 * 256 + 1 * (j 1).val
      rw [e5]; omega

/-- An index of the array is in point t's block iff each coordinate is in the block's range. -/
theorem mem_blk (t : Fin cfg0.N) (i : S150000x256.Idx) :
    i ∈ ((cfg0.win 2).blk t).view.set ↔ ∀ a : Fin 2, win0_2.index t a * S3000x256.size a ≤ (i a).val ∧ (i a).val < win0_2.index t a * S3000x256.size a + S3000x256.size a := by
  show i ∈ ((View.whole main_v7).slice (win0_2.rect t)).set ↔ _
  rw [View.set_slice_whole, Rect.mem_set_unit]
  exact Iff.rfl

/-- The product array after the region: the table times the matrix. -/
theorem final (c : Dev nD) : (dat0 V c).arrAt 2 cfg0.N = mm (V c main_arg0) (V c main_v0) :=
  (dat0 V c).arrAt_eq_of_cover 2 (mm (V c main_arg0) (V c main_v0)) (fun t _ => flushed V c t) fun i => by
    have hi0 : (i 0).val < 150000 := (i 0).isLt
    have hi1 : (i 1).val < 256 := (i 1).isLt
    have hN : cfg0.N = 50 := N_0
    refine ⟨⟨(i 0).val / 3000, by rw [hN]; omega⟩, flush0_2 _, ?_⟩
    rw [mem_blk]
    obtain ⟨-, -, -, -, e4, e5⟩ := idx_facts ⟨(i 0).val / 3000, by rw [hN]; omega⟩
    intro a
    match a with
    | ⟨0, _⟩ =>
      show win0_2.index _ 0 * 3000 ≤ (i 0).val ∧ (i 0).val < win0_2.index _ 0 * 3000 + 3000
      rw [e4]; show (i 0).val / 3000 * 3000 ≤ (i 0).val ∧ (i 0).val < (i 0).val / 3000 * 3000 + 3000; omega
    | ⟨1, _⟩ =>
      show win0_2.index _ 1 * 256 ≤ (i 1).val ∧ (i 1).val < win0_2.index _ 1 * 256 + 256
      rw [e5]; omega

end Cert.Sage.Reg0

end
-- ==== Proof.Reg1.lean ====
import proofs.«135385_j52905407152435_2_alg».proof.Proof.Gen.KernelIdeal.Frame
import proofs.«135385_j52905407152435_2_alg».proof.Proof.KSpec
import proofs.«135385_j52905407152435_2_alg».proof.Proof.Payload
import Idealize.ShloMosaic.Lib.Pipeline.Value
import Idealize.ShloMosaic.Lib.ValueIdx

set_option maxRecDepth 16384

noncomputable section

namespace Cert.Sage.Reg1

open Idealize.ShloMosaic Idealize.ShloMosaic.TcCoe Idealize.ShloMosaic.ValueIdx Idealize.SL.Sem
open Idealize.ShloMosaic.Pipeline (Dat)
open Cert.KernelIdeal Cert.KernelIdeal.Gen Cert.Sage
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the three row-blocked inputs and the output move down by one block of rows
    per point; the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point t is rows 2000 t … 2000 t + 1999. -/
theorem iblk_a (c : Dev nD) (t : Fin cfg1.N) (y : S2000x256.Idx) (i : S30000x256.Idx)
    (h0 : (i 0).val = 2000 * t.val + (y 0).val) (h1 : (i 1).val = (y 1).val) :
    (iblk1 V c 0 t : Vec Ideal S2000x256 .f32) y = (V c main_v17 : S30000x256.Idx → EReal) i := by
  have e0 := (idx_facts t).1
  have e1 := (idx_facts t).2.1
  unfold iblk1
  rw [View.read_apply]
  show V c main_v17 _ = V c main_v17 _
  congr 1
  funext a
  apply Fin.ext
  match a with
  | ⟨0, _⟩ => show win1_0.index t 0 * 2000 + 1 * (y 0).val = (i 0).val; rw [e0, h0]; omega
  | ⟨1, _⟩ => show win1_0.index t 1 * 256 + 1 * (y 1).val = (i 1).val; rw [e1, h1]; omega

/-- The count column's block at point t is rows 2000 t … 2000 t + 1999. -/
theorem iblk_c (c : Dev nD) (t : Fin cfg1.N) (y : S2000x1.Idx) (i : S30000x1.Idx)
    (h0 : (i 0).val = 2000 * t.val + (y 0).val) (h1 : (i 1).val = (y 1).val) :
    (iblk1 V c 1 t : Vec Ideal S2000x1 .f32) y = (V c main_v22 : S30000x1.Idx → EReal) i := by
  have e0 := (idx_facts t).2.2.1
  have e1 := (idx_facts t).2.2.2.1
  unfold iblk1
  rw [View.read_apply]
  show V c main_v22 _ = V c main_v22 _
  congr 1
  funext a
  apply Fin.ext
  match a with
  | ⟨0, _⟩ => show win1_1.index t 0 * 2000 + 1 * (y 0).val = (i 0).val; rw [e0, h0]; omega
  | ⟨1, _⟩ => show win1_1.index t 1 * 1 + 1 * (y 1).val = (i 1).val; rw [e1, h1]; omega

/-- The targets' features' block at point t is rows 2000 t … 2000 t + 1999. -/
theorem iblk_x (c : Dev nD) (t : Fin cfg1.N) (y : S2000x512.Idx) (i : S30000x512.Idx)
    (h0 : (i 0).val = 2000 * t.val + (y 0).val) (h1 : (i 1).val = (y 1).val) :
    (iblk1 V c 2 t : Vec Ideal S2000x512 .f32) y = (V c main_v23 : S30000x512.Idx → EReal) i := by
  have e0 := (idx_facts t).2.2.2.2.1
  have e1 := (idx_facts t).2.2.2.2.2.1
  unfold iblk1
  rw [View.read_apply]
  show V c main_v23 _ = V c main_v23 _
  congr 1
  funext a
  apply Fin.ext
  match a with
  | ⟨0, _⟩ => show win1_2.index t 0 * 2000 + 1 * (y 0).val = (i 0).val; rw [e0, h0]; omega
  | ⟨1, _⟩ => show win1_2.index t 1 * 512 + 1 * (y 1).val = (i 1).val; rw [e1, h1]; omega

/-- The weights' block at every point is the matrix. -/
theorem iblk_w (c : Dev nD) (t : Fin cfg1.N) (y : S512x256.Idx) :
    (iblk1 V c 3 t : Vec Ideal S512x256 .f32) y = (V c main_v1 : S512x256.Idx → EReal) y := by
  have e0 := (idx_facts t).2.2.2.2.2.2.1
  have e1 := (idx_facts t).2.2.2.2.2.2.2.1
  unfold iblk1
  rw [View.read_apply]
  show V c main_v1 _ = V c main_v1 _
  congr 1
  funext a
  apply Fin.ext
  match a with
  | ⟨0, _⟩ => show win1_3.index t 0 * 512 + 1 * (y 0).val = (y 0).val; rw [e0]; omega
  | ⟨1, _⟩ => show win1_3.index t 1 * 256 + 1 * (y 1).val = (y 1).val; rw [e1]; omega

/-- The bias row's block at every point is the row. -/
theorem iblk_b (c : Dev nD) (t : Fin cfg1.N) (y : S1x256.Idx) :
    (iblk1 V c 4 t : Vec Ideal S1x256 .f32) y = (V c main_v2 : S1x256.Idx → EReal) y := by
  have e0 := (idx_facts t).2.2.2.2.2.2.2.2.1
  have e1 := (idx_facts t).2.2.2.2.2.2.2.2.2.1
  unfold iblk1
  rw [View.read_apply]
  show V c main_v2 _ = V c main_v2 _
  congr 1
  funext a
  apply Fin.ext
  match a with
  | ⟨0, _⟩ => show win1_4.index t 0 * 1 + 1 * (y 0).val = (y 0).val; rw [e0]; omega
  | ⟨1, _⟩ => show win1_4.index t 1 * 256 + 1 * (y 1).val = (y 1).val; rw [e1]; omega

/-- What point t writes back is block t of the layer of the five arrays. -/
theorem flushed (c : Dev nD) (t : Fin cfg1.N) :
    (dat1 V c).flushed 5 t = ((cfg1.win 5).blk t).view.read (Elt Ideal)
      (layer1 (V c main_v17) (V c main_v22) (V c main_v23) (V c main_v1) (V c main_v2)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S2000x512) hz,
    View.ld_unit_zero (S := S512x256) hz, View.ld_unit_zero (S := S1x256) hz]
  have e10 := (idx_facts t).2.2.2.2.2.2.2.2.2.2.1
  have e11 := (idx_facts t).2.2.2.2.2.2.2.2.2.2.2
  funext j
  have hj0 : (j 0).val < 2000 := (j 0).isLt
  have hj1 : (j 1).val < 256 := (j 1).isLt
  rw [View.read_apply]
  show k1_pay1 (iblk1 V c 1 t) (iblk1 V c 0 t) (iblk1 V c 2 t) (iblk1 V c 3 t) (iblk1 V c 4 t) ((cfg1.win 5).xinj (grid1.coords t) j)
    = layer1 (V c main_v17) (V c main_v22) (V c main_v23) (V c main_v1) (V c main_v2) _
  have hx : (cfg1.win 5).xinj (grid1.coords t) j = ix2 (⟨(j 0).val, hj0⟩ : Fin 2000) (⟨(j 1).val, hj1⟩ : Fin 256) := by
    funext a; match a with
    | ⟨0, _⟩ => rfl
    | ⟨1, _⟩ => rfl
  rw [hx]
  refine (Cert.Sage.Pay.pay1_apply (iblk1 V c 1 t) (iblk1 V c 0 t) (iblk1 V c 2 t) (iblk1 V c 3 t) (iblk1 V c 4 t) _ _).trans ?_
  unfold layer1
  have r0 : (((cfg1.win 5).blk t).view.emb j 0).val = 2000 * t.val + (j 0).val := by
    show win1_5.index t 0 * 2000 + 1 * (j 0).val = _
    rw [e10]; omega
  have r1 : (((cfg1.win 5).blk t).view.emb j 1).val = (j 1).val := by
    show win1_5.index t 1 * 256 + 1 * (j 1).val = _
    rw [e11]; omega
  refine congrArg (max · w0) ?_
  refine congrArg₂ (· + ·) (congrArg₂ (· + ·) (congrArg₂ Ideal.div ?_ (congrArg (max · w1) ?_)) ?_) (Finset.sum_congr rfl fun k _ => congrArg₂ (· * ·) ?_ ?_)
  · exact iblk_a V c t _ _ r0 r1
  · exact iblk_c V c t _ _ r0 rfl
  · refine (iblk_b V c t _).trans ?_
    congr 1
    funext a; apply Fin.ext
    match a with
    | ⟨0, _⟩ => rfl
    | ⟨1, _⟩ => exact r1.symm
  · exact iblk_x V c t _ _ r0 rfl
  · refine (iblk_w V c t _).trans ?_
    congr 1
    funext a; apply Fin.ext
    match a with
    | ⟨0, _⟩ => rfl
    | ⟨1, _⟩ => exact r1.symm

/-- An index of the array is in point t's block iff each coordinate is in the block's range. -/
theorem mem_blk (t : Fin cfg1.N) (i : S30000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v24).slice (win1_5.rect t)).set ↔ _
  rw [View.set_slice_whole, Rect.mem_set_unit]
  exact Iff.rfl

/-- The hidden array after the region: the layer of the five arrays as the region finds them. -/
theorem final (c : Dev nD) : (dat1 V c).arrAt 5 cfg1.N
    = layer1 (V c main_v17) (V c main_v22) (V c main_v23) (V c main_v1) (V c main_v2) :=
  (dat1 V c).arrAt_eq_of_cover 5 _ (fun t _ => flushed V c t) fun i => by
    have hi0 : (i 0).val < 30000 := (i 0).isLt
    have hi1 : (i 1).val < 256 := (i 1).isLt
    have hN : cfg1.N = 15 := N_1
    refine ⟨⟨(i 0).val / 2000, by rw [hN]; omega⟩, flush1_5 _, ?_⟩
    rw [mem_blk]
    have e10 := (idx_facts ⟨(i 0).val / 2000, by rw [hN]; omega⟩).2.2.2.2.2.2.2.2.2.2.1
    have e11 := (idx_facts ⟨(i 0).val / 2000, by rw [hN]; omega⟩).2.2.2.2.2.2.2.2.2.2.2
    intro a
    match a with
    | ⟨0, _⟩ =>
      show win1_5.index _ 0 * 2000 ≤ (i 0).val ∧ (i 0).val < win1_5.index _ 0 * 2000 + 2000
      rw [e10]; show (i 0).val / 2000 * 2000 ≤ (i 0).val ∧ (i 0).val < (i 0).val / 2000 * 2000 + 2000; omega
    | ⟨1, _⟩ =>
      show win1_5.index _ 1 * 256 ≤ (i 1).val ∧ (i 1).val < win1_5.index _ 1 * 256 + 256
      rw [e11]; omega

end Cert.Sage.Reg1

end
-- ==== Proof.Reg2.lean ====
import proofs.«135385_j52905407152435_2_alg».proof.Proof.Gen.KernelIdeal.Frame
import proofs.«135385_j52905407152435_2_alg».proof.Proof.KSpec
import proofs.«135385_j52905407152435_2_alg».proof.Proof.Payload
import Idealize.ShloMosaic.Lib.Pipeline.Value
import Idealize.ShloMosaic.Lib.ValueIdx

set_option maxRecDepth 16384

noncomputable section

namespace Cert.Sage.Reg2

open Idealize.ShloMosaic Idealize.ShloMosaic.TcCoe Idealize.ShloMosaic.ValueIdx Idealize.SL.Sem
open Idealize.ShloMosaic.Pipeline (Dat)
open Cert.KernelIdeal Cert.KernelIdeal.Gen Cert.Sage
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the table and the product move down by one block of rows per point, the matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The table's block at point t is rows 2000 t … 2000 t + 1999. -/
theorem iblk_x (c : Dev nD) (t : Fin cfg2.N) (y : S2000x256.Idx) (i : S30000x256.Idx)
    (h0 : (i 0).val = 2000 * t.val + (y 0).val) (h1 : (i 1).val = (y 1).val) :
    (iblk2 V c 0 t : Vec Ideal S2000x256 .f32) y = (V c main_v24 : S30000x256.Idx → EReal) i := by
  have e0 := (idx_facts t).1
  have e1 := (idx_facts t).2.1
  unfold iblk2
  rw [View.read_apply]
  show V c main_v24 _ = V c main_v24 _
  congr 1
  funext a
  apply Fin.ext
  match a with
  | ⟨0, _⟩ => show win2_0.index t 0 * 2000 + 1 * (y 0).val = (i 0).val; rw [e0, h0]; omega
  | ⟨1, _⟩ => show win2_0.index t 1 * 256 + 1 * (y 1).val = (i 1).val; rw [e1, h1]; omega

/-- The matrix's block at every point is the matrix. -/
theorem iblk_w (c : Dev nD) (t : Fin cfg2.N) (y : S256x128.Idx) :
    (iblk2 V c 1 t : Vec Ideal S256x128 .f32) y = (V c main_v6 : S256x128.Idx → EReal) y := by
  have e0 := (idx_facts t).2.2.1
  have e1 := (idx_facts t).2.2.2.1
  unfold iblk2
  rw [View.read_apply]
  show V c main_v6 _ = V c main_v6 _
  congr 1
  funext a
  apply Fin.ext
  match a with
  | ⟨0, _⟩ => show win2_1.index t 0 * 256 + 1 * (y 0).val = (y 0).val; rw [e0]; omega
  | ⟨1, _⟩ => show win2_1.index t 1 * 128 + 1 * (y 1).val = (y 1).val; rw [e1]; omega

/-- What point t writes back is block t of the product of the table with the matrix. -/
theorem flushed (c : Dev nD) (t : Fin cfg2.N) :
    (dat2 V c).flushed 2 t = ((cfg2.win 2).blk t).view.read (Elt Ideal) (mm (V c main_v24) (V c main_v6)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  have e4 := (idx_facts t).2.2.2.2.1
  have e5 := (idx_facts t).2.2.2.2.2
  funext j
  have hj0 : (j 0).val < 2000 := (j 0).isLt
  have hj1 : (j 1).val < 128 := (j 1).isLt
  rw [View.read_apply]
  show k2_pay1 (iblk2 V c 0 t) (iblk2 V c 1 t) ((cfg2.win 2).xinj (grid2.coords t) j) = mm (V c main_v24) (V c main_v6) _
  have hx : (cfg2.win 2).xinj (grid2.coords t) j = ix2 (⟨(j 0).val, hj0⟩ : Fin 2000) (⟨(j 1).val, hj1⟩ : Fin 128) := by
    funext a; match a with
    | ⟨0, _⟩ => rfl
    | ⟨1, _⟩ => rfl
  rw [hx]
  refine (Cert.Sage.Pay.pay2_apply (iblk2 V c 0 t) (iblk2 V c 1 t) _ _).trans ?_
  unfold mm projAt
  refine Finset.sum_congr rfl fun k _ => ?_
  refine congrArg₂ (· * ·) ?_ ?_
  · refine iblk_x V c t _ _ ?_ ?_
    · show (((cfg2.win 2).blk t).view.emb j 0).val = 2000 * t.val + (j 0).val
      show win2_2.index t 0 * 2000 + 1 * (j 0).val = _
      rw [e4]; omega
    · rfl
  · refine (iblk_w V c t _).trans ?_
    congr 1
    funext a; apply Fin.ext
    match a with
    | ⟨0, _⟩ => rfl
    | ⟨1, _⟩ =>
      show (j 1).val = (((cfg2.win 2).blk t).view.emb j 1).val
      show (j 1).val = win2_2.index t 1 * 128 + 1 * (j 1).val
      rw [e5]; omega

/-- An index of the array is in point t's block iff each coordinate is in the block's range. -/
theorem mem_blk (t : Fin cfg2.N) (i : S30000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v25).slice (win2_2.rect t)).set ↔ _
  rw [View.set_slice_whole, Rect.mem_set_unit]
  exact Iff.rfl

/-- The product array after the region: the table times the matrix. -/
theorem final (c : Dev nD) : (dat2 V c).arrAt 2 cfg2.N = mm (V c main_v24) (V c main_v6) :=
  (dat2 V c).arrAt_eq_of_cover 2 (mm (V c main_v24) (V c main_v6)) (fun t _ => flushed V c t) fun i => by
    have hi0 : (i 0).val < 30000 := (i 0).isLt
    have hi1 : (i 1).val < 128 := (i 1).isLt
    have hN : cfg2.N = 15 := N_2
    refine ⟨⟨(i 0).val / 2000, by rw [hN]; omega⟩, flush2_2 _, ?_⟩
    rw [mem_blk]
    have e4 := (idx_facts ⟨(i 0).val / 2000, by rw [hN]; omega⟩).2.2.2.2.1
    have e5 := (idx_facts ⟨(i 0).val / 2000, by rw [hN]; omega⟩).2.2.2.2.2
    intro a
    match a with
    | ⟨0, _⟩ =>
      show win2_2.index _ 0 * 2000 ≤ (i 0).val ∧ (i 0).val < win2_2.index _ 0 * 2000 + 2000
      rw [e4]; show (i 0).val / 2000 * 2000 ≤ (i 0).val ∧ (i 0).val < (i 0).val / 2000 * 2000 + 2000; omega
    | ⟨1, _⟩ =>
      show win2_2.index _ 1 * 128 ≤ (i 1).val ∧ (i 1).val < win2_2.index _ 1 * 128 + 128
      rw [e5]; omega

end Cert.Sage.Reg2

end
-- ==== Proof.Reg3.lean ====
import proofs.«135385_j52905407152435_2_alg».proof.Proof.Gen.KernelIdeal.Frame
import proofs.«135385_j52905407152435_2_alg».proof.Proof.KSpec
import proofs.«135385_j52905407152435_2_alg».proof.Proof.Payload
import Idealize.ShloMosaic.Lib.Pipeline.Value
import Idealize.ShloMosaic.Lib.ValueIdx

set_option maxRecDepth 16384

noncomputable section

namespace Cert.Sage.Reg3

open Idealize.ShloMosaic Idealize.ShloMosaic.TcCoe Idealize.ShloMosaic.ValueIdx Idealize.SL.Sem
open Idealize.ShloMosaic.Pipeline (Dat)
open Cert.KernelIdeal Cert.KernelIdeal.Gen Cert.Sage
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the three row-blocked inputs and the output move down by one block of rows
    per point; the weights and the bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The aggregate's block at point t is rows 2048 t … 2048 t + 2047. -/
theorem iblk_a (c : Dev nD) (t : Fin cfg3.N) (y : S2048x20.Idx) (i : S8192x20.Idx)
    (h0 : (i 0).val = 2048 * t.val + (y 0).val) (h1 : (i 1).val = (y 1).val) :
    (iblk3 V c 0 t : Vec Ideal S2048x20 .f32) y = (V c main_v36 : S8192x20.Idx → EReal) i := by
  have e0 := (idx_facts t).1
  have e1 := (idx_facts t).2.1
  unfold iblk3
  rw [View.read_apply]
  show V c main_v36 _ = V c main_v36 _
  congr 1
  funext a
  apply Fin.ext
  match a with
  | ⟨0, _⟩ => show win3_0.index t 0 * 2048 + 1 * (y 0).val = (i 0).val; rw [e0, h0]; omega
  | ⟨1, _⟩ => show win3_0.index t 1 * 20 + 1 * (y 1).val = (i 1).val; rw [e1, h1]; omega

/-- The count column's block at point t is rows 2048 t … 2048 t + 2047. -/
theorem iblk_c (c : Dev nD) (t : Fin cfg3.N) (y : S2048x1.Idx) (i : S8192x1.Idx)
    (h0 : (i 0).val = 2048 * t.val + (y 0).val) (h1 : (i 1).val = (y 1).val) :
    (iblk3 V c 1 t : Vec Ideal S2048x1 .f32) y = (V c main_v41 : S8192x1.Idx → EReal) i := by
  have e0 := (idx_facts t).2.2.1
  have e1 := (idx_facts t).2.2.2.1
  unfold iblk3
  rw [View.read_apply]
  show V c main_v41 _ = V c main_v41 _
  congr 1
  funext a
  apply Fin.ext
  match a with
  | ⟨0, _⟩ => show win3_1.index t 0 * 2048 + 1 * (y 0).val = (i 0).val; rw [e0, h0]; omega
  | ⟨1, _⟩ => show win3_1.index t 1 * 1 + 1 * (y 1).val = (i 1).val; rw [e1, h1]; omega

/-- The targets' hidden features' block at point t is rows 2048 t … 2048 t + 2047. -/
theorem iblk_h (c : Dev nD) (t : Fin cfg3.N) (y : S2048x256.Idx) (i : S8192x256.Idx)
    (h0 : (i 0).val = 2048 * t.val + (y 0).val) (h1 : (i 1).val = (y 1).val) :
    (iblk3 V c 2 t : Vec Ideal S2048x256 .f32) y = (V c main_v42 : S8192x256.Idx → EReal) i := by
  have e0 := (idx_facts t).2.2.2.2.1
  have e1 := (idx_facts t).2.2.2.2.2.1
  unfold iblk3
  rw [View.read_apply]
  show V c main_v42 _ = V c main_v42 _
  congr 1
  funext a
  apply Fin.ext
  match a with
  | ⟨0, _⟩ => show win3_2.index t 0 * 2048 + 1 * (y 0).val = (i 0).val; rw [e0, h0]; omega
  | ⟨1, _⟩ => show win3_2.index t 1 * 256 + 1 * (y 1).val = (i 1).val; rw [e1, h1]; omega

/-- The weights' block at every point is the matrix. -/
theorem iblk_w (c : Dev nD) (t : Fin cfg3.N) (y : S256x20.Idx) :
    (iblk3 V c 3 t : Vec Ideal S256x20 .f32) y = (V c main_v3 : S256x20.Idx → EReal) y := by
  have e0 := (idx_facts t).2.2.2.2.2.2.1
  have e1 := (idx_facts t).2.2.2.2.2.2.2.1
  unfold iblk3
  rw [View.read_apply]
  show V c main_v3 _ = V c main_v3 _
  congr 1
  funext a
  apply Fin.ext
  match a with
  | ⟨0, _⟩ => show win3_3.index t 0 * 256 + 1 * (y 0).val = (y 0).val; rw [e0]; omega
  | ⟨1, _⟩ => show win3_3.index t 1 * 20 + 1 * (y 1).val = (y 1).val; rw [e1]; omega

/-- The bias row's block at every point is the row. -/
theorem iblk_b (c : Dev nD) (t : Fin cfg3.N) (y : S1x20.Idx) :
    (iblk3 V c 4 t : Vec Ideal S1x20 .f32) y = (V c main_v4 : S1x20.Idx → EReal) y := by
  have e0 := (idx_facts t).2.2.2.2.2.2.2.2.1
  have e1 := (idx_facts t).2.2.2.2.2.2.2.2.2.1
  unfold iblk3
  rw [View.read_apply]
  show V c main_v4 _ = V c main_v4 _
  congr 1
  funext a
  apply Fin.ext
  match a with
  | ⟨0, _⟩ => show win3_4.index t 0 * 1 + 1 * (y 0).val = (y 0).val; rw [e0]; omega
  | ⟨1, _⟩ => show win3_4.index t 1 * 20 + 1 * (y 1).val = (y 1).val; rw [e1]; omega

/-- What point t writes back is block t of the head of the five arrays. -/
theorem flushed (c : Dev nD) (t : Fin cfg3.N) :
    (dat3 V c).flushed 5 t = ((cfg3.win 5).blk t).view.read (Elt Ideal)
      (head2 (V c main_v36) (V c main_v41) (V c main_v42) (V c main_v3) (V c main_v4)) := by
  show (cfg3.win 5).cut (grid3.coords t) ((dat3 V c).after 5 t) = _
  rw [after3_5]
  unfold out3_5
  rw [View.canon_unit_zero hz]
  simp only [View.ld_unit_zero (S := S2048x20) hz, View.ld_unit_zero (S := S2048x1) hz, View.ld_unit_zero (S := S2048x256) hz,
    View.ld_unit_zero (S := S256x20) hz, View.ld_unit_zero (S := S1x20) hz]
  have e10 := (idx_facts t).2.2.2.2.2.2.2.2.2.2.1
  have e11 := (idx_facts t).2.2.2.2.2.2.2.2.2.2.2
  funext j
  have hj0 : (j 0).val < 2048 := (j 0).isLt
  have hj1 : (j 1).val < 20 := (j 1).isLt
  rw [View.read_apply]
  show k3_pay1 (iblk3 V c 1 t) (iblk3 V c 0 t) (iblk3 V c 2 t) (iblk3 V c 3 t) (iblk3 V c 4 t) ((cfg3.win 5).xinj (grid3.coords t) j)
    = head2 (V c main_v36) (V c main_v41) (V c main_v42) (V c main_v3) (V c main_v4) _
  have hx : (cfg3.win 5).xinj (grid3.coords t) j = ix2 (⟨(j 0).val, hj0⟩ : Fin 2048) (⟨(j 1).val, hj1⟩ : Fin 20) := by
    funext a; match a with
    | ⟨0, _⟩ => rfl
    | ⟨1, _⟩ => rfl
  rw [hx]
  refine (Cert.Sage.Pay.pay3_apply (iblk3 V c 1 t) (iblk3 V c 0 t) (iblk3 V c 2 t) (iblk3 V c 3 t) (iblk3 V c 4 t) _ _).trans ?_
  unfold head2
  have r0 : (((cfg3.win 5).blk t).view.emb j 0).val = 2048 * t.val + (j 0).val := by
    show win3_5.index t 0 * 2048 + 1 * (j 0).val = _
    rw [e10]; omega
  have r1 : (((cfg3.win 5).blk t).view.emb j 1).val = (j 1).val := by
    show win3_5.index t 1 * 20 + 1 * (j 1).val = _
    rw [e11]; omega
  refine congr (congrArg lsmAt (funext fun jj => ?_)) (Fin.ext r1.symm)
  unfold scores2
  refine congrArg₂ (· + ·) (congrArg₂ (· + ·) (congrArg₂ Ideal.div ?_ (congrArg (max · w1) ?_)) ?_) (Finset.sum_congr rfl fun k _ => congrArg₂ (· * ·) ?_ ?_)
  · exact iblk_a V c t _ _ r0 rfl
  · exact iblk_c V c t _ _ r0 rfl
  · exact iblk_b V c t _
  · exact iblk_h V c t _ _ r0 rfl
  · exact iblk_w V c t _

/-- An index of the array is in point t's block iff each coordinate is in the block's range. -/
theorem mem_blk (t : Fin cfg3.N) (i : S8192x20.Idx) :
    i ∈ ((cfg3.win 5).blk t).view.set ↔ ∀ a : Fin 2, win3_5.index t a * S2048x20.size a ≤ (i a).val ∧ (i a).val < win3_5.index t a * S2048x20.size a + S2048x20.size a := by
  show i ∈ ((View.whole main_v43).slice (win3_5.rect t)).set ↔ _
  rw [View.set_slice_whole, Rect.mem_set_unit]
  exact Iff.rfl

/-- The result array after the region: the head of the five arrays as the region finds them. -/
theorem final (c : Dev nD) : (dat3 V c).arrAt 5 cfg3.N
    = head2 (V c main_v36) (V c main_v41) (V c main_v42) (V c main_v3) (V c main_v4) :=
  (dat3 V c).arrAt_eq_of_cover 5 _ (fun t _ => flushed V c t) fun i => by
    have hi0 : (i 0).val < 8192 := (i 0).isLt
    have hi1 : (i 1).val < 20 := (i 1).isLt
    have hN : cfg3.N = 4 := N_3
    refine ⟨⟨(i 0).val / 2048, by rw [hN]; omega⟩, flush3_5 _, ?_⟩
    rw [mem_blk]
    have e10 := (idx_facts ⟨(i 0).val / 2048, by rw [hN]; omega⟩).2.2.2.2.2.2.2.2.2.2.1
    have e11 := (idx_facts ⟨(i 0).val / 2048, by rw [hN]; omega⟩).2.2.2.2.2.2.2.2.2.2.2
    intro a
    match a with
    | ⟨0, _⟩ =>
      show win3_5.index _ 0 * 2048 ≤ (i 0).val ∧ (i 0).val < win3_5.index _ 0 * 2048 + 2048
      rw [e10]; show (i 0).val / 2048 * 2048 ≤ (i 0).val ∧ (i 0).val < (i 0).val / 2048 * 2048 + 2048; omega
    | ⟨1, _⟩ =>
      show win3_5.index _ 1 * 20 ≤ (i 1).val ∧ (i 1).val < win3_5.index _ 1 * 20 + 20
      rw [e11]; omega

end Cert.Sage.Reg3

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.Chain.lean ====
import proofs.«135385_j52905407152435_2_alg».proof.Proof.Gen.KernelIdeal.Frame
import proofs.«135385_j52905407152435_2_alg».proof.Proof.Spec
import proofs.«135385_j52905407152435_2_alg».proof.Proof.KSpec
import proofs.«135385_j52905407152435_2_alg».proof.Proof.Reg0
import proofs.«135385_j52905407152435_2_alg».proof.Proof.Reg1
import proofs.«135385_j52905407152435_2_alg».proof.Proof.Reg2
import proofs.«135385_j52905407152435_2_alg».proof.Proof.Reg3
import proofs.«135385_j52905407152435_2_alg».proof.Proof.LibTypedRef
import Idealize.ShloMosaic.Lib.Pipeline.Value
import Idealize.ShloMosaic.Lib.ValueIdx
import Idealize.ShloMosaic.Lib.StableHlo.Run

/-!
# The contents of the buffers from the launch to the result, boundary by boundary

The program is four host stretches and four regions. Each boundary's contents are the previous boundary's
with a stretch's operations applied, or with a region's output array replaced by what the region leaves. This
module reads, at every boundary, exactly the buffers the next segment consumes, as terms of the launch arrays:
the transposed projections and bias rows; the table times the first projection; the first layer's gathered and
summed rows, its counts and its targets' rows; the hidden features; the hidden features times the padded second
projection; the second layer's edge path; the result.
-/

set_option maxRecDepth 16384

noncomputable section

namespace Cert.Sage.Chain

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Sage
open scoped BigOperators

variable (m : (ℓ : Loc nD τ sig) → Buf (Elt Ideal) ℓ) (ρ : Dev nD → PrngReg) (c : Dev nD)

/-- A buffer that no operation of a host stretch writes keeps its contents over the stretch. -/
macro "keeps_over" : tactic => `(tactic| (
  refine StableHlo.after_of_forall_not_mem _ _ (List.forall_iff_forall_mem.mp ?_)
  simp only [hostOps0, hostOps0_1, hostOps1, hostOps3, List.Forall, StableHlo.nullary_writes, StableHlo.unary_writes,
    StableHlo.binary_writes, StableHlo.ternary_writes, StableHlo.quaternary_writes, StableHlo.reshape_writes,
    StableHlo.binaryIndexed_writes, StableHlo.TRef.unary, StableHlo.TRef.binary, StableHlo.TRef.nullary, Finset.mem_singleton]
  repeat' apply And.intro
  all_goals exact StableHlo.devRef_ne_of_ne (by decide)))

/-! ## The arrays region 0 finds, and what it leaves -/

/-- The launch arrays. -/
abbrev aX := m ((c : Thread nD τ).loc main_arg0)
abbrev aS1 := m ((c : Thread nD τ).loc main_arg1)
abbrev aD1 := m ((c : Thread nD τ).loc main_arg2)
abbrev aS2 := m ((c : Thread nD τ).loc main_arg3)
abbrev aD2 := m ((c : Thread nD τ).loc main_arg4)
abbrev aWl1 := m ((c : Thread nD τ).loc main_arg5)
abbrev aB1 := m ((c : Thread nD τ).loc main_arg6)
abbrev aWr1 := m ((c : Thread nD τ).loc main_arg7)
abbrev aWl2 := m ((c : Thread nD τ).loc main_arg8)
abbrev aB2 := m ((c : Thread nD τ).loc main_arg9)
abbrev aWr2 := m ((c : Thread nD τ).loc main_arg10)

/-- The transposed projections, the bias rows and the padded second projection, as the host computes them. -/
abbrev tWl1 : S512x256.Idx → EReal := transpose S512x256 [1, 0] (aWl1 m c) transposes_S256x512_S512x256_1_0
abbrev tWr1 : S512x256.Idx → EReal := transpose S512x256 [1, 0] (aWr1 m c) transposes_S256x512_S512x256_1_0
abbrev rB1 : S1x256.Idx → EReal := shapeCast S1x256 (aB1 m c) shapeCasts_S256_S1x256
abbrev tWr2 : S256x20.Idx → EReal := transpose S256x20 [1, 0] (aWr2 m c) transposes_S20x256_S256x20_1_0
abbrev rB2 : S1x20.Idx → EReal := shapeCast S1x20 (aB2 m c) shapeCasts_S20_S1x20
abbrev tWl2 : S256x20.Idx → EReal := transpose S256x20 [1, 0] (aWl2 m c) transposes_S20x256_S256x20_1_0
abbrev pWl2 : S256x128.Idx → EReal :=
  pad S256x128 ![0, 0] ![0, 108] ![0, 0] (tWl2 m c) (sitofp .f32 (constantI S_ 32 0#32) : FVec Ideal S_ .f32) pads_S256x20_S256x128_000_01080 h_S_

theorem W2_arg0 : W2 m ρ c (Proc.devRef .tc main_arg0) = aX m c := by
  show StableHlo.after hostOps0_1 (StableHlo.after hostOps0 (W0 m ρ c)) (Proc.devRef .tc main_arg0) = _
  after_results
theorem W2_v0 : W2 m ρ c (Proc.devRef .tc main_v0) = tWl1 m c := by
  show StableHlo.after hostOps0_1 (StableHlo.after hostOps0 (W0 m ρ c)) (Proc.devRef .tc main_v0) = _
  after_results
theorem W2_v1 : W2 m ρ c (Proc.devRef .tc main_v1) = tWr1 m c := by
  show StableHlo.after hostOps0_1 (StableHlo.after hostOps0 (W0 m ρ c)) (Proc.devRef .tc main_v1) = _
  after_results
theorem W2_v2 : W2 m ρ c (Proc.devRef .tc main_v2) = rB1 m c := by
  show StableHlo.after hostOps0_1 (StableHlo.after hostOps0 (W0 m ρ c)) (Proc.devRef .tc main_v2) = _
  after_results
  rfl
theorem W2_v3 : W2 m ρ c (Proc.devRef .tc main_v3) = tWr2 m c := by
  show StableHlo.after hostOps0_1 (StableHlo.after hostOps0 (W0 m ρ c)) (Proc.devRef .tc main_v3) = _
  after_results
theorem W2_v4 : W2 m ρ c (Proc.devRef .tc main_v4) = rB2 m c := by
  show StableHlo.after hostOps0_1 (StableHlo.after hostOps0 (W0 m ρ c)) (Proc.devRef .tc main_v4) = _
  after_results
  rfl
theorem W2_v6 : W2 m ρ c (Proc.devRef .tc main_v6) = pWl2 m c := by
  show StableHlo.after hostOps0_1 (StableHlo.after hostOps0 (W0 m ρ c)) (Proc.devRef .tc main_v6) = _
  after_results
  simp only [Cert.LibTypedRef.ofBuf_toBuf]
  rfl
theorem W2_arg1 : W2 m ρ c (Proc.devRef .tc main_arg1) = aS1 m c := by
  show StableHlo.after hostOps0_1 (StableHlo.after hostOps0 (W0 m ρ c)) (Proc.devRef .tc main_arg1) = _
  after_results
theorem W2_arg2 : W2 m ρ c (Proc.devRef .tc main_arg2) = aD1 m c := by
  show StableHlo.after hostOps0_1 (StableHlo.after hostOps0 (W0 m ρ c)) (Proc.devRef .tc main_arg2) = _
  after_results
theorem W2_arg3 : W2 m ρ c (Proc.devRef .tc main_arg3) = aS2 m c := by
  show StableHlo.after hostOps0_1 (StableHlo.after hostOps0 (W0 m ρ c)) (Proc.devRef .tc main_arg3) = _
  after_results
theorem W2_arg4 : W2 m ρ c (Proc.devRef .tc main_arg4) = aD2 m c := by
  show StableHlo.after hostOps0_1 (StableHlo.after hostOps0 (W0 m ρ c)) (Proc.devRef .tc main_arg4) = _
  after_results

/-- Region 0 leaves the feature table times the transposed first projection. -/
theorem W3_v7 : W3 m ρ c (Proc.devRef .tc main_v7) = mm (aX m c) (tWl1 m c) := by
  refine (W3_arr m ρ c 2).trans ?_
  rw [Reg0.final (V2 m ρ) c]
  have e0 : V2 m ρ c main_arg0 = aX m c := W2_arg0 m ρ c
  have e1 : V2 m ρ c main_v0 = tWl1 m c := W2_v0 m ρ c
  rw [e0, e1]

/-- The buffers region 0 does not stage keep their contents over it. -/
theorem W3_arg0 : W3 m ρ c (Proc.devRef .tc main_arg0) = aX m c :=
  ((W3_arr m ρ c 0).trans (((dat0 (V2 m ρ) c).arrAt_in 0 rfl _).trans (A_eq0 (V2 m ρ) c 0))).trans (W2_arg0 m ρ c)
theorem W3_arg1 : W3 m ρ c (Proc.devRef .tc main_arg1) = aS1 m c := (W3_of_ne m ρ c main_arg1 (by decide)).trans (W2_arg1 m ρ c)
theorem W3_arg2 : W3 m ρ c (Proc.devRef .tc main_arg2) = aD1 m c := (W3_of_ne m ρ c main_arg2 (by decide)).trans (W2_arg2 m ρ c)
theorem W3_arg3 : W3 m ρ c (Proc.devRef .tc main_arg3) = aS2 m c := (W3_of_ne m ρ c main_arg3 (by decide)).trans (W2_arg3 m ρ c)
theorem W3_arg4 : W3 m ρ c (Proc.devRef .tc main_arg4) = aD2 m c := (W3_of_ne m ρ c main_arg4 (by decide)).trans (W2_arg4 m ρ c)
theorem W3_v1 : W3 m ρ c (Proc.devRef .tc main_v1) = tWr1 m c := (W3_of_ne m ρ c main_v1 (by decide)).trans (W2_v1 m ρ c)
theorem W3_v2 : W3 m ρ c (Proc.devRef .tc main_v2) = rB1 m c := (W3_of_ne m ρ c main_v2 (by decide)).trans (W2_v2 m ρ c)
theorem W3_v3 : W3 m ρ c (Proc.devRef .tc main_v3) = tWr2 m c := (W3_of_ne m ρ c main_v3 (by decide)).trans (W2_v3 m ρ c)
theorem W3_v4 : W3 m ρ c (Proc.devRef .tc main_v4) = rB2 m c := (W3_of_ne m ρ c main_v4 (by decide)).trans (W2_v4 m ρ c)
theorem W3_v6 : W3 m ρ c (Proc.devRef .tc main_v6) = pWl2 m c := (W3_of_ne m ρ c main_v6 (by decide)).trans (W2_v6 m ρ c)

/-! ## The first layer's edge path, region 1 and region 2 -/

/-- The source column of layer 1 (a negative index wrapped by the table's height) and the target column. -/
abbrev s1col : S400000x1.Idx → BitVec 32 :=
  broadcastInDim S400000x1 ![0] bcast_S400000_S400000x1_0
    (select (cmpi .slt (aS1 m c) (broadcastInDim S400000 ![] bcast_S_S400000 (constantI S_ 32 0#32)))
      (addi (aS1 m c) (broadcastInDim S400000 ![] bcast_S_S400000 (constantI S_ 32 150000#32))) (aS1 m c))
abbrev d1col : S400000x1.Idx → BitVec 32 := broadcastInDim S400000x1 ![0] bcast_S400000_S400000x1_0 (aD1 m c)

/-- The projected rows gathered along the edges and summed into their targets; the number of edges per target. -/
abbrev agg1 : S30000x256.Idx → EReal :=
  Host.scatterAdd (F := Ideal) scatter_S30000x256_S400000x1_S400000x256_1_0_0_1
    (broadcastInDim S30000x256 ![] bcast_S_S30000x256 (constant (F := Ideal) S_ .f32 0x00000000#32)) (d1col m c)
    (Host.gather gather_S150000x256_S400000x1_S400000x256_1_0_n_n_0_1_1256 (mm (aX m c) (tWl1 m c)) (s1col m c))
abbrev cnt1 : S30000.Idx → EReal :=
  Host.scatterAdd (F := Ideal) scatter_S30000_S400000x1_S400000_n_0_0_1
    (broadcastInDim S30000 ![] bcast_S_S30000 (constant (F := Ideal) S_ .f32 0x00000000#32)) (d1col m c)
    (broadcastInDim S400000 ![] bcast_S_S400000 (constant (F := Ideal) S_ .f32 0x3F800000#32))
abbrev c1col : S30000x1.Idx → EReal := shapeCast S30000x1 (cnt1 m c) shapeCasts_S30000_S30000x1
abbrev xs : S30000x512.Idx → EReal := extractStridedSlice S30000x512 ![0, 0] (aX m c) slices_S150000x512_S30000x512_0_0

theorem W4_v17 : W4 m ρ c (Proc.devRef .tc main_v17) = agg1 m c := by
  show StableHlo.after hostOps1 (W3 m ρ c) (Proc.devRef .tc main_v17) = _
  after_results
  rw [W3_v7, W3_arg1, W3_arg2]
theorem W4_v22 : W4 m ρ c (Proc.devRef .tc main_v22) = c1col m c := by
  show StableHlo.after hostOps1 (W3 m ρ c) (Proc.devRef .tc main_v22) = _
  after_results
  rw [W3_arg2]
  rfl
theorem W4_v23 : W4 m ρ c (Proc.devRef .tc main_v23) = xs m c := by
  show StableHlo.after hostOps1 (W3 m ρ c) (Proc.devRef .tc main_v23) = _
  after_results
  rw [W3_arg0]
theorem W4_v1 : W4 m ρ c (Proc.devRef .tc main_v1) = tWr1 m c :=
  (show StableHlo.after hostOps1 (W3 m ρ c) (Proc.devRef .tc main_v1) = W3 m ρ c (Proc.devRef .tc main_v1) by keeps_over).trans (W3_v1 m ρ c)
theorem W4_v2 : W4 m ρ c (Proc.devRef .tc main_v2) = rB1 m c :=
  (show StableHlo.after hostOps1 (W3 m ρ c) (Proc.devRef .tc main_v2) = W3 m ρ c (Proc.devRef .tc main_v2) by keeps_over).trans (W3_v2 m ρ c)
theorem W4_v3 : W4 m ρ c (Proc.devRef .tc main_v3) = tWr2 m c :=
  (show StableHlo.after hostOps1 (W3 m ρ c) (Proc.devRef .tc main_v3) = W3 m ρ c (Proc.devRef .tc main_v3) by keeps_over).trans (W3_v3 m ρ c)
theorem W4_v4 : W4 m ρ c (Proc.devRef .tc main_v4) = rB2 m c :=
  (show StableHlo.after hostOps1 (W3 m ρ c) (Proc.devRef .tc main_v4) = W3 m ρ c (Proc.devRef .tc main_v4) by keeps_over).trans (W3_v4 m ρ c)
theorem W4_v6 : W4 m ρ c (Proc.devRef .tc main_v6) = pWl2 m c :=
  (show StableHlo.after hostOps1 (W3 m ρ c) (Proc.devRef .tc main_v6) = W3 m ρ c (Proc.devRef .tc main_v6) by keeps_over).trans (W3_v6 m ρ c)
theorem W4_arg3 : W4 m ρ c (Proc.devRef .tc main_arg3) = aS2 m c :=
  (show StableHlo.after hostOps1 (W3 m ρ c) (Proc.devRef .tc main_arg3) = W3 m ρ c (Proc.devRef .tc main_arg3) by keeps_over).trans (W3_arg3 m ρ c)
theorem W4_arg4 : W4 m ρ c (Proc.devRef .tc main_arg4) = aD2 m c :=
  (show StableHlo.after hostOps1 (W3 m ρ c) (Proc.devRef .tc main_arg4) = W3 m ρ c (Proc.devRef .tc main_arg4) by keeps_over).trans (W3_arg4 m ρ c)

/-- The hidden features, as the program computes them. -/
abbrev hidK : S30000x256.Idx → EReal := layer1 (agg1 m c) (c1col m c) (xs m c) (tWr1 m c) (rB1 m c)

/-- Region 1 leaves the hidden features. -/
theorem W5_v24 : W5 m ρ c (Proc.devRef .tc main_v24) = hidK m c := by
  refine (W5_arr m ρ c 5).trans ?_
  rw [Reg1.final (V4 m ρ) c]
  have e17 : V4 m ρ c main_v17 = agg1 m c := W4_v17 m ρ c
  have e22 : V4 m ρ c main_v22 = c1col m c := W4_v22 m ρ c
  have e23 : V4 m ρ c main_v23 = xs m c := W4_v23 m ρ c
  have e1 : V4 m ρ c main_v1 = tWr1 m c := W4_v1 m ρ c
  have e2 : V4 m ρ c main_v2 = rB1 m c := W4_v2 m ρ c
  rw [e17, e22, e23, e1, e2]
theorem W5_v3 : W5 m ρ c (Proc.devRef .tc main_v3) = tWr2 m c := (W5_of_ne m ρ c main_v3 (by decide)).trans (W4_v3 m ρ c)
theorem W5_v4 : W5 m ρ c (Proc.devRef .tc main_v4) = rB2 m c := (W5_of_ne m ρ c main_v4 (by decide)).trans (W4_v4 m ρ c)
theorem W5_v6 : W5 m ρ c (Proc.devRef .tc main_v6) = pWl2 m c := (W5_of_ne m ρ c main_v6 (by decide)).trans (W4_v6 m ρ c)
theorem W5_arg3 : W5 m ρ c (Proc.devRef .tc main_arg3) = aS2 m c := (W5_of_ne m ρ c main_arg3 (by decide)).trans (W4_arg3 m ρ c)
theorem W5_arg4 : W5 m ρ c (Proc.devRef .tc main_arg4) = aD2 m c := (W5_of_ne m ρ c main_arg4 (by decide)).trans (W4_arg4 m ρ c)

/-- Region 2 leaves the hidden features times the padded transposed projection of layer 2. -/
theorem W6_v25 : W6 m ρ c (Proc.devRef .tc main_v25) = mm (hidK m c) (pWl2 m c) := by
  refine (W6_arr m ρ c 2).trans ?_
  rw [Reg2.final (V5 m ρ) c]
  have e24 : V5 m ρ c main_v24 = hidK m c := W5_v24 m ρ c
  have e6 : V5 m ρ c main_v6 = pWl2 m c := W5_v6 m ρ c
  rw [e24, e6]
theorem W6_v24 : W6 m ρ c (Proc.devRef .tc main_v24) = hidK m c :=
  ((W6_arr m ρ c 0).trans (((dat2 (V5 m ρ) c).arrAt_in 0 rfl _).trans (A_eq2 (V5 m ρ) c 0))).trans (W5_v24 m ρ c)
theorem W6_v3 : W6 m ρ c (Proc.devRef .tc main_v3) = tWr2 m c := (W6_of_ne m ρ c main_v3 (by decide)).trans (W5_v3 m ρ c)
theorem W6_v4 : W6 m ρ c (Proc.devRef .tc main_v4) = rB2 m c := (W6_of_ne m ρ c main_v4 (by decide)).trans (W5_v4 m ρ c)
theorem W6_arg3 : W6 m ρ c (Proc.devRef .tc main_arg3) = aS2 m c := (W6_of_ne m ρ c main_arg3 (by decide)).trans (W5_arg3 m ρ c)
theorem W6_arg4 : W6 m ρ c (Proc.devRef .tc main_arg4) = aD2 m c := (W6_of_ne m ρ c main_arg4 (by decide)).trans (W5_arg4 m ρ c)

/-! ## The second layer's edge path and region 3 -/

abbrev s2col : S160000x1.Idx → BitVec 32 :=
  broadcastInDim S160000x1 ![0] bcast_S160000_S160000x1_0
    (select (cmpi .slt (aS2 m c) (broadcastInDim S160000 ![] bcast_S_S160000 (constantI S_ 32 0#32)))
      (addi (aS2 m c) (broadcastInDim S160000 ![] bcast_S_S160000 (constantI S_ 32 30000#32))) (aS2 m c))
abbrev d2col : S160000x1.Idx → BitVec 32 := broadcastInDim S160000x1 ![0] bcast_S160000_S160000x1_0 (aD2 m c)

/-- The first 20 columns of the projected hidden rows. -/
abbrev hw2 : S30000x20.Idx → EReal := extractStridedSlice S30000x20 ![0, 0] (mm (hidK m c) (pWl2 m c)) slices_S30000x128_S30000x20_0_0
abbrev agg2 : S8192x20.Idx → EReal :=
  Host.scatterAdd (F := Ideal) scatter_S8192x20_S160000x1_S160000x20_1_0_0_1
    (broadcastInDim S8192x20 ![] bcast_S_S8192x20 (constant (F := Ideal) S_ .f32 0x00000000#32)) (d2col m c)
    (Host.gather gather_S30000x20_S160000x1_S160000x20_1_0_n_n_0_1_120 (hw2 m c) (s2col m c))
abbrev cnt2 : S8192.Idx → EReal :=
  Host.scatterAdd (F := Ideal) scatter_S8192_S160000x1_S160000_n_0_0_1
    (broadcastInDim S8192 ![] bcast_S_S8192 (constant (F := Ideal) S_ .f32 0x00000000#32)) (d2col m c)
    (broadcastInDim S160000 ![] bcast_S_S160000 (constant (F := Ideal) S_ .f32 0x3F800000#32))
abbrev c2col : S8192x1.Idx → EReal := shapeCast S8192x1 (cnt2 m c) shapeCasts_S8192_S8192x1
abbrev hs : S8192x256.Idx → EReal := extractStridedSlice S8192x256 ![0, 0] (hidK m c) slices_S30000x256_S8192x256_0_0

theorem W7_v36 : W7 m ρ c (Proc.devRef .tc main_v36) = agg2 m c := by
  show StableHlo.after hostOps3 (W6 m ρ c) (Proc.devRef .tc main_v36) = _
  after_results
  rw [W6_v25, W6_arg3, W6_arg4]
theorem W7_v41 : W7 m ρ c (Proc.devRef .tc main_v41) = c2col m c := by
  show StableHlo.after hostOps3 (W6 m ρ c) (Proc.devRef .tc main_v41) = _
  after_results
  rw [W6_arg4]
  rfl
theorem W7_v42 : W7 m ρ c (Proc.devRef .tc main_v42) = hs m c := by
  show StableHlo.after hostOps3 (W6 m ρ c) (Proc.devRef .tc main_v42) = _
  after_results
  rw [W6_v24]
theorem W7_v3 : W7 m ρ c (Proc.devRef .tc main_v3) = tWr2 m c :=
  (show StableHlo.after hostOps3 (W6 m ρ c) (Proc.devRef .tc main_v3) = W6 m ρ c (Proc.devRef .tc main_v3) by keeps_over).trans (W6_v3 m ρ c)
theorem W7_v4 : W7 m ρ c (Proc.devRef .tc main_v4) = rB2 m c :=
  (show StableHlo.after hostOps3 (W6 m ρ c) (Proc.devRef .tc main_v4) = W6 m ρ c (Proc.devRef .tc main_v4) by keeps_over).trans (W6_v4 m ρ c)

/-- Region 3 leaves the log-softmax of the class scores: the program's result. -/
theorem W8_v43 : W8 m ρ c (Proc.devRef .tc main_v43) = head2 (agg2 m c) (c2col m c) (hs m c) (tWr2 m c) (rB2 m c) := by
  refine (W8_arr m ρ c 5).trans ?_
  rw [Reg3.final (V7 m ρ) c]
  have e36 : V7 m ρ c main_v36 = agg2 m c := W7_v36 m ρ c
  have e41 : V7 m ρ c main_v41 = c2col m c := W7_v41 m ρ c
  have e42 : V7 m ρ c main_v42 = hs m c := W7_v42 m ρ c
  have e3 : V7 m ρ c main_v3 = tWr2 m c := W7_v3 m ρ c
  have e4 : V7 m ρ c main_v4 = rB2 m c := W7_v4 m ρ c
  rw [e36, e41, e42, e3, e4]

end Cert.Sage.Chain

end
-- ==== Proof.LibEdgeSum.lean ====
import proofs.«135385_j52905407152435_2_alg».proof.Proof.LibReal
import proofs.«135385_j52905407152435_2_alg».proof.Proof.LibRowIndex

/-!
# A scatter-add of rows as a sum over edges, and projecting before or after aggregating

A scatter-add of E update rows into an [N, C] array, the e-th row landing on the row its scatter index names,
leaves at entry (p, q) the operand's entry plus the sum, over the edges e whose index is p, of update (e, q).

If every update row is a weight a_e times a feature row x_e, then multiplying the aggregated row by a matrix
column w is aggregating the projected rows: Σ_k (Σ_e a_e x_{e,k}) w_k = Σ_e a_e (Σ_k x_{e,k} w_k) — on the
extended reals this needs every number to be real, since products do not distribute over sums that meet
both infinities.
-/

noncomputable section

namespace Cert.EdgeSum

open Idealize.ShloMosaic Idealize.ShloMosaic.ValueIdx Cert.GinMath Cert.RowIndex
open scoped BigOperators

/-- A scatter-add of rows at entry (p, q): the operand there plus the updates (e, q) of the edges e whose
    scatter index, read signed, is p. -/
theorem rowScatterAdd_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w)
    (u : (⟨2, ![E, C]⟩ : Shape).Idx → EReal) (p : Fin N) (q : Fin C) :
    Host.scatterAdd (F := Ideal) (φ := .f32) (rowScatterDims N E C wf) z idx u (ix2 p q)
      = z (ix2 p q)
        + ∑ e ∈ Finset.univ.filter (fun e : Fin E => (idx (ix2 e (0 : Fin 1))).toInt = (p.val : ℤ)), u (ix2 e q) := by
  show Ideal.hostScatterAdd (rowScatterDims N E C wf) z idx u (ix2 p q) = _
  unfold Ideal.hostScatterAdd
  congr 1
  refine Finset.sum_nbij' (fun j => j 0) (fun e => ix2 e q) ?_ ?_ ?_ ?_ ?_
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    exact Finset.mem_filter.mpr ⟨Finset.mem_univ _, h.1⟩
  · intro e he
    exact Finset.mem_filter.mpr ⟨Finset.mem_univ _,
      (rowScatter_resultIdx wf idx e q p q).mpr ⟨(Finset.mem_filter.mp he).2, rfl⟩⟩
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show ix2 e q = ix2 e c
    rw [h.2]
  · intro e _
    rfl
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show u (ix2 e c) = u (ix2 e q)
    rw [h.2]

/-- Projecting the aggregated row is aggregating the projected rows, all numbers being real. -/
theorem project_aggregate {ι κ : Type*} [Fintype κ] (S : Finset ι) (a : ι → EReal) (x : ι → κ → EReal) (w : κ → EReal)
    (ha : ∀ e, IsReal (a e)) (hx : ∀ e k, IsReal (x e k)) (hw : ∀ k, IsReal (w k)) :
    ∑ k : κ, (0 + ∑ e ∈ S, a e * x e k) * w k = 0 + ∑ e ∈ S, a e * ∑ k : κ, x e k * w k := by
  classical
  obtain ⟨a', ha'⟩ := exists_real_fun ha
  obtain ⟨w', hw'⟩ := exists_real_fun hw
  obtain ⟨x', hx'⟩ := exists_real_fun (f := fun q : ι × κ => x q.1 q.2) (fun q => hx q.1 q.2)
  have hxe : ∀ e k, x e k = ((x' (e, k) : ℝ) : EReal) := fun e k => hx' (e, k)
  simp only [ha', hw', hxe, zero_add, ← EReal.coe_mul, ← coe_sum]
  congr 1
  simp only [Finset.sum_mul, Finset.mul_sum]
  rw [Finset.sum_comm]
  refine Finset.sum_congr rfl fun e _ => Finset.sum_congr rfl fun k _ => ?_
  ring

end Cert.EdgeSum

end
-- ==== Proof.KValue.lean ====
import proofs.«135385_j52905407152435_2_alg».proof.Proof.Chain
import proofs.«135385_j52905407152435_2_alg».proof.Proof.LibEdgeSum
import Idealize.ShloMosaic.Lib.KernelVsHost
import Idealize.ShloMosaic.Lib.ValueLayout

/-!
# The program's result is the network, projecting first

Reading the chain's arrays at an index: a scatter-add of gathered rows is the zero word plus the sum over the
edges landing on the target of the source's row; a reshape of a vector to a column or a row, a leading slice
and the zero-padded projection read back their operand. Put together, the hidden features the program computes
are the first layer with every row projected before the mean is taken, and the result is the log-softmax of the
second layer computed the same way over those hidden features.
-/

set_option maxRecDepth 16384

noncomputable section

namespace Cert.Sage.Chain

open Idealize.ShloMosaic Idealize.ShloMosaic.TcCoe Idealize.ShloMosaic.ValueIdx Idealize.SL.Sem
open Cert.KernelIdeal Cert.KernelIdeal.Gen Cert.Sage Cert.RowIndex
open scoped BigOperators

variable (m : (ℓ : Loc nD τ sig) → Buf (Elt Ideal) ℓ) (c : Dev nD)

/-- The printed gather and scatter records are gathers and scatters of whole rows by an index column. -/
theorem gath1_eq : gather_S150000x256_S400000x1_S400000x256_1_0_n_n_0_1_1256
    = rowGatherDims 150000 400000 256 gather_S150000x256_S400000x1_S400000x256_1_0_n_n_0_1_1256_wf := rfl
theorem scat1_eq : scatter_S30000x256_S400000x1_S400000x256_1_0_0_1
    = rowScatterDims 30000 400000 256 scatter_S30000x256_S400000x1_S400000x256_1_0_0_1_wf := rfl
theorem gath2_eq : gather_S30000x20_S160000x1_S160000x20_1_0_n_n_0_1_120
    = rowGatherDims 30000 160000 20 gather_S30000x20_S160000x1_S160000x20_1_0_n_n_0_1_120_wf := rfl
theorem scat2_eq : scatter_S8192x20_S160000x1_S160000x20_1_0_0_1
    = rowScatterDims 8192 160000 20 scatter_S8192x20_S160000x1_S160000x20_1_0_0_1_wf := rfl

/-- A vector cast to a column reads, at (i, 0), the vector at i. -/
theorem col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Layer 1 -/

/-- The aggregate of layer 1 at a target and a column: the zero word plus, over the edges landing on the target,
    the source's projected row. -/
theorem agg1_apply (p : Fin 30000) (q : Fin 256) :
    agg1 m c (ix2 p q) = w0 + ∑ e ∈ landing (d1col m c) p.val,
      projAt (aX m c) (tWl1 m c) (clampRow 150000 (by norm_num) (s1col m c (ix2 e (0 : Fin 1)))) q := by
  show Host.scatterAdd (F := Ideal) (φ := .f32) scatter_S30000x256_S400000x1_S400000x256_1_0_0_1 _ _ _ (ix2 p q) = _
  rw [scat1_eq, Cert.EdgeSum.rowScatterAdd_apply]
  refine congrArg₂ (· + ·) rfl (Finset.sum_congr rfl fun e _ => ?_)
  rw [gath1_eq, rowGather_apply (by norm_num)]
  rfl

theorem c1col_apply (p : Fin 30000) : c1col m c (ix2 p (0 : Fin 1)) = cnt1 m c (ix1 p) :=
  col_apply (cnt1 m c) shapeCasts_S30000_S30000x1 p 0

theorem rB1_apply (q : Fin 256) : rB1 m c (ix2 (0 : Fin 1) q) = aB1 m c (ix1 q) :=
  shapeCast_a_1a_apply (aB1 m c) shapeCasts_S256_S1x256 0 q

theorem xs_apply (p : Fin 30000) (k : Fin 512) : xs m c (ix2 p k) = aX m c (ix2 (Fin.castLE (by norm_num) p) k) :=
  extractStridedSlice_apply _ _ _ _ _ fun a => by
    match a with
    | ⟨0, _⟩ => show p.val = 0 + p.val; omega
    | ⟨1, _⟩ => show k.val = 0 + k.val; omega

/-- The hidden features the program computes are the first layer, every row projected before the mean. -/
theorem hidK_eq : hidK m c = khid (aX m c) (s1col m c) (d1col m c) (cnt1 m c) (tWl1 m c) (aB1 m c) (tWr1 m c) := by
  funext i
  obtain ⟨p, q, rfl⟩ : ∃ (p : Fin 30000) (q : Fin 256), i = ix2 p q := ⟨i 0, i 1, eq_ix2 i⟩
  rw [khid_apply]
  show layer1 (agg1 m c) (c1col m c) (xs m c) (tWr1 m c) (rB1 m c) (ix2 p q) = _
  rw [layer1_apply]
  unfold kconvAt
  rw [agg1_apply, c1col_apply, rB1_apply]
  exact congrArg (max · w0) (congrArg₂ (· + ·) rfl (Finset.sum_congr rfl fun k _ => congrArg₂ (· * ·) (xs_apply m c p k) rfl))

/-! ## Layer 2 -/

/-- The zero-padded projection read at a column below 20 is the projection. -/
theorem pWl2_apply (k : Fin 256) (j : Fin 20) : pWl2 m c (ix2 k (Fin.castLE (by norm_num) j)) = tWl2 m c (ix2 k j) :=
  pad_apply_of_inside _ _ _ _ _ _ _ _ _ fun a => by
    match a with
    | ⟨0, _⟩ => show k.val = 0 + k.val * (0 + 1); omega
    | ⟨1, _⟩ => show j.val = 0 + j.val * (0 + 1); omega

/-- A source's projected hidden row: the first 20 columns of the hidden features times the padded projection. -/
theorem hw2_apply (n : Fin 30000) (j : Fin 20) : hw2 m c (ix2 n j) = projAt (hidK m c) (tWl2 m c) n j := by
  have e : hw2 m c (ix2 n j) = mm (hidK m c) (pWl2 m c) (ix2 n (Fin.castLE (by norm_num) j)) :=
    extractStridedSlice_apply _ _ _ _ _ fun a => by
      match a with
      | ⟨0, _⟩ => show n.val = 0 + n.val; omega
      | ⟨1, _⟩ => show j.val = 0 + j.val; omega
  rw [e, mm_apply]
  unfold projAt
  exact Finset.sum_congr rfl fun k _ => congrArg₂ (· * ·) rfl (pWl2_apply m c k j)

theorem agg2_apply (p : Fin 8192) (j : Fin 20) :
    agg2 m c (ix2 p j) = w0 + ∑ e ∈ landing (d2col m c) p.val,
      projAt (hidK m c) (tWl2 m c) (clampRow 30000 (by norm_num) (s2col m c (ix2 e (0 : Fin 1)))) j := by
  show Host.scatterAdd (F := Ideal) (φ := .f32) scatter_S8192x20_S160000x1_S160000x20_1_0_0_1 _ _ _ (ix2 p j) = _
  rw [scat2_eq, Cert.EdgeSum.rowScatterAdd_apply]
  refine congrArg₂ (· + ·) rfl (Finset.sum_congr rfl fun e _ => ?_)
  rw [gath2_eq, rowGather_apply (by norm_num)]
  exact hw2_apply m c _ j

theorem c2col_apply (p : Fin 8192) : c2col m c (ix2 p (0 : Fin 1)) = cnt2 m c (ix1 p) :=
  col_apply (cnt2 m c) shapeCasts_S8192_S8192x1 p 0

theorem rB2_apply (q : Fin 20) : rB2 m c (ix2 (0 : Fin 1) q) = aB2 m c (ix1 q) :=
  shapeCast_a_1a_apply (aB2 m c) shapeCasts_S20_S1x20 0 q

theorem hs_apply (p : Fin 8192) (k : Fin 256) : hs m c (ix2 p k) = hidK m c (ix2 (Fin.castLE (by norm_num) p) k) :=
  extractStridedSlice_apply _ _ _ _ _ fun a => by
    match a with
    | ⟨0, _⟩ => show p.val = 0 + p.val; omega
    | ⟨1, _⟩ => show k.val = 0 + k.val; omega

/-- The result the program computes is the log-softmax of the second layer over its hidden features, every row
    projected before the mean. -/
theorem head_eq : head2 (agg2 m c) (c2col m c) (hs m c) (tWr2 m c) (rB2 m c)
    = lsm (kout2 (hidK m c) (s2col m c) (d2col m c) (cnt2 m c) (tWl2 m c) (aB2 m c) (tWr2 m c)) := by
  funext i
  obtain ⟨p, q, rfl⟩ : ∃ (p : Fin 8192) (q : Fin 20), i = ix2 p q := ⟨i 0, i 1, eq_ix2 i⟩
  rw [head2_apply, lsm_apply]
  refine congrArg (fun r => lsmAt r q) (funext fun j => ?_)
  rw [kout2_apply]
  unfold scores2 kconvAt
  rw [agg2_apply, c2col_apply, rB2_apply]
  exact congrArg₂ (· + ·) rfl (Finset.sum_congr rfl fun k _ => congrArg₂ (· * ·) (hs_apply m c p k) rfl)

/-- The program's result array, as a term of the launch arrays. -/
theorem result_eq (ρ : Dev nD → PrngReg) : W8 m ρ c (Proc.devRef .tc main_v43)
    = lsm (kout2 (khid (aX m c) (s1col m c) (d1col m c) (cnt1 m c) (tWl1 m c) (aB1 m c) (tWr1 m c))
        (s2col m c) (d2col m c) (cnt2 m c) (tWl2 m c) (aB2 m c) (tWr2 m c)) :=
  (W8_v43 m ρ c).trans ((head_eq m c).trans (by rw [hidK_eq]))

end Cert.Sage.Chain

end
-- ==== Proof.Algebra.lean ====
import proofs.«135385_j52905407152435_2_alg».proof.Proof.Spec
import proofs.«135385_j52905407152435_2_alg».proof.Proof.LibReal

/-!
# Averaging before or after projecting, and which arrays are real

A mean over edges of source rows followed by a projection equals the mean of the projected rows: with a real
divisor c ≠ 0 and real entries x, w,

  (Σ_e Σ_k x_{e,k} w_k) / c = Σ_k ((Σ_e x_{e,k}) / c) w_k,

which is distributivity in ℝ; on the extended reals it would fail where a sum meets both infinities, hence the
hypotheses. The divisor of a layer is max (cnt p) 1, a real number ≥ 1 when cnt p is real. From this the two
forms of a layer agree entry by entry, and so do the two forms of the hidden features and of the class scores.

A layer of real arrays is real, so the hidden features are real; a transpose only moves entries, and a
scatter-add adds finitely many updates to an entry, so both keep arrays real.
-/

noncomputable section

namespace Cert.Sage

open Idealize.ShloMosaic Idealize.ShloMosaic.ValueIdx Cert.RowIndex Cert.GinMath
open scoped BigOperators

/-- The maximum of a real extended real and the word of 1.0 is a real number, and not zero (it is ≥ 1). -/
theorem max_one_real {a : EReal} (ha : IsReal a) : ∃ r : ℝ, r ≠ 0 ∧ max a w1 = (r : EReal) := by
  obtain ⟨a', rfl⟩ := ha
  refine ⟨max a' 1, ?_, ?_⟩
  · have h : (1 : ℝ) ≤ max a' 1 := le_max_right a' 1
    intro h0
    rw [h0] at h
    exact absurd h (by norm_num)
  · show max (a' : EReal) (Ideal.ofBits .f32 0x3F800000#32) = _
    rw [ofBits_one]
    exact (EReal.coe_strictMono.monotone.map_max).symm

/-- The word of 0.0 is real. -/
theorem isReal_w0 : IsReal w0 := by
  show IsReal (Ideal.ofBits .f32 0x00000000#32)
  rw [ofBits_zero]
  exact isReal_zero

/-- Dividing the projected aggregate by a nonzero real is projecting the divided aggregate, all numbers real:
    (z + Σ_e Σ_k x_{e,k} w_k) / c = Σ_k ((z + Σ_e x_{e,k}) / c) w_k with z = 0. -/
theorem mean_exchange {ι κ : Type*} [Fintype κ] (S : Finset ι) (x : ι → κ → EReal) (w : κ → EReal) (z c : EReal)
    (hz : z = 0) (hx : ∀ e k, IsReal (x e k)) (hw : ∀ k, IsReal (w k)) (hc : ∃ r : ℝ, r ≠ 0 ∧ c = (r : EReal)) :
    Ideal.div (z + ∑ e ∈ S, ∑ k : κ, x e k * w k) c = ∑ k : κ, Ideal.div (z + ∑ e ∈ S, x e k) c * w k := by
  classical
  obtain ⟨r, hr, rfl⟩ := hc
  subst hz
  obtain ⟨w', hw'⟩ := exists_real_fun hw
  obtain ⟨x', hx'⟩ := exists_real_fun (f := fun j : ι × κ => x j.1 j.2) (fun j => hx j.1 j.2)
  have hxe : ∀ e k, x e k = ((x' (e, k) : ℝ) : EReal) := fun e k => hx' (e, k)
  simp only [hw', hxe, Ideal.div_coe hr, zero_add, ← EReal.coe_mul, ← coe_sum]
  refine congrArg _ ?_
  rw [Finset.sum_comm, Finset.sum_mul]
  refine Finset.sum_congr rfl fun k _ => ?_
  rw [Finset.sum_mul, Finset.sum_mul, Finset.sum_mul]
  refine Finset.sum_congr rfl fun e _ => ?_
  ring

section Layer

variable {N T E K C : Nat}

/-- The two forms of a layer agree at every target and column, the table, the projection and the count real. -/
theorem kconvAt_eq (hN : 0 < N) (hT : T ≤ N) (X : (⟨2, ![N, K]⟩ : Shape).Idx → EReal) (s d : IVec ⟨2, ![E, 1]⟩ 32)
    (cnt : (⟨1, ![T]⟩ : Shape).Idx → EReal) (Wl : (⟨2, ![K, C]⟩ : Shape).Idx → EReal) (b : (⟨1, ![C]⟩ : Shape).Idx → EReal)
    (Wr : (⟨2, ![K, C]⟩ : Shape).Idx → EReal) (hX : ∀ i, IsReal (X i)) (hWl : ∀ i, IsReal (Wl i)) (hcnt : ∀ i, IsReal (cnt i))
    (p : Fin T) (q : Fin C) : kconvAt hN hT X s d cnt Wl b Wr p q = convAt hN hT X s d cnt Wl b Wr p q := by
  unfold kconvAt convAt projAt
  refine congrArg (fun t => (t + b (ix1 q)) + ∑ k : Fin K, X (ix2 (Fin.castLE hT p) k) * Wr (ix2 k q)) ?_
  exact mean_exchange (landing d p.val) (fun e k => X (ix2 (clampRow N hN (s (ix2 e (0 : Fin 1)))) k))
    (fun k => Wl (ix2 k q)) w0 (max (cnt (ix1 p)) w1) ofBits_zero (fun _ _ => hX _) (fun _ => hWl _)
    (max_one_real (hcnt (ix1 p)))

/-- A layer of real arrays is real at every target and column. -/
theorem isReal_convAt (hN : 0 < N) (hT : T ≤ N) (X : (⟨2, ![N, K]⟩ : Shape).Idx → EReal) (s d : IVec ⟨2, ![E, 1]⟩ 32)
    (cnt : (⟨1, ![T]⟩ : Shape).Idx → EReal) (Wl : (⟨2, ![K, C]⟩ : Shape).Idx → EReal) (b : (⟨1, ![C]⟩ : Shape).Idx → EReal)
    (Wr : (⟨2, ![K, C]⟩ : Shape).Idx → EReal) (hX : ∀ i, IsReal (X i)) (hcnt : ∀ i, IsReal (cnt i)) (hWl : ∀ i, IsReal (Wl i))
    (hb : ∀ i, IsReal (b i)) (hWr : ∀ i, IsReal (Wr i)) (p : Fin T) (q : Fin C) :
    IsReal (convAt hN hT X s d cnt Wl b Wr p q) := by
  unfold convAt
  obtain ⟨r, hr, hc⟩ := max_one_real (hcnt (ix1 p))
  rw [hc]
  refine ((IsReal.sum fun k _ => ?_).add (hb _)).add (IsReal.sum fun k _ => (hX _).mul (hWr _))
  exact (IsReal.div_coe hr (isReal_w0.add (IsReal.sum fun e _ => hX _))).mul (hWl _)

end Layer

/-! ## The network's arrays -/

/-- The hidden features in their two forms are the same array. -/
theorem khid_eq (x s1 d1 cnt1 Wl1 b1 Wr1) (hx : ∀ i, IsReal (x i)) (hWl : ∀ i, IsReal (Wl1 i)) (hcnt : ∀ i, IsReal (cnt1 i)) :
    khid x s1 d1 cnt1 Wl1 b1 Wr1 = hid x s1 d1 cnt1 Wl1 b1 Wr1 := by
  funext i
  obtain ⟨p, q, rfl⟩ : ∃ (p : Fin 30000) (q : Fin 256), i = ix2 p q := ⟨i 0, i 1, eq_ix2 i⟩
  rw [khid_apply, hid_apply, kconvAt_eq _ _ x s1 d1 cnt1 Wl1 b1 Wr1 hx hWl hcnt p q]

/-- The class scores in their two forms are the same array. -/
theorem kout2_eq (h s2 d2 cnt2 Wl2 b2 Wr2) (hh : ∀ i, IsReal (h i)) (hWl : ∀ i, IsReal (Wl2 i)) (hcnt : ∀ i, IsReal (cnt2 i)) :
    kout2 h s2 d2 cnt2 Wl2 b2 Wr2 = out2 h s2 d2 cnt2 Wl2 b2 Wr2 := by
  funext i
  obtain ⟨p, q, rfl⟩ : ∃ (p : Fin 8192) (q : Fin 20), i = ix2 p q := ⟨i 0, i 1, eq_ix2 i⟩
  rw [kout2_apply, out2_apply, kconvAt_eq _ _ h s2 d2 cnt2 Wl2 b2 Wr2 hh hWl hcnt p q]

/-- The hidden features of real arrays are real. -/
theorem isReal_hid (x s1 d1 cnt1 Wl1 b1 Wr1) (hx : ∀ i, IsReal (x i)) (hcnt : ∀ i, IsReal (cnt1 i)) (hWl : ∀ i, IsReal (Wl1 i))
    (hb : ∀ i, IsReal (b1 i)) (hWr : ∀ i, IsReal (Wr1 i)) : ∀ i, IsReal (hid x s1 d1 cnt1 Wl1 b1 Wr1 i) := by
  intro i
  obtain ⟨p, q, rfl⟩ : ∃ (p : Fin 30000) (q : Fin 256), i = ix2 p q := ⟨i 0, i 1, eq_ix2 i⟩
  rw [hid_apply]
  exact (isReal_convAt _ _ x s1 d1 cnt1 Wl1 b1 Wr1 hx hcnt hWl hb hWr p q).max isReal_w0

/-- The class scores of real arrays are real. -/
theorem isReal_out2 (h s2 d2 cnt2 Wl2 b2 Wr2) (hh : ∀ i, IsReal (h i)) (hcnt : ∀ i, IsReal (cnt2 i)) (hWl : ∀ i, IsReal (Wl2 i))
    (hb : ∀ i, IsReal (b2 i)) (hWr : ∀ i, IsReal (Wr2 i)) : ∀ i, IsReal (out2 h s2 d2 cnt2 Wl2 b2 Wr2 i) := by
  intro i
  obtain ⟨p, q, rfl⟩ : ∃ (p : Fin 8192) (q : Fin 20), i = ix2 p q := ⟨i 0, i 1, eq_ix2 i⟩
  rw [out2_apply]
  exact isReal_convAt _ _ h s2 d2 cnt2 Wl2 b2 Wr2 hh hcnt hWl hb hWr p q

/-! ## Moving and accumulating entries -/

/-- Every entry of a transpose is an entry of the source, so a transpose of a real array is real. -/
theorem isReal_transpose {s : Shape} (t : Shape) (perm : List (Fin s.rank)) (x : s.Idx → EReal) (h : s.Transposes perm t)
    (hx : ∀ i, IsReal (x i)) (j : t.Idx) : IsReal (transpose t perm x h j) :=
  hx (h.src j)

/-- A scatter-add leaves at each entry the operand's entry plus a finite sum of updates, so a scatter-add of
    real updates into a real array is real. -/
theorem isReal_scatterAdd {s si su : Shape} {w : Nat} (ds : ScatterDims s si su) (z : s.Idx → EReal)
    (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

end Cert.Sage

end
-- ==== Proof.Finite.lean ====
import proofs.«135385_j52905407152435_2_alg».proof.Defs
import proofs.«135385_j52905407152435_2_alg».proof.Proof.Gen.Pre_finite_inputs
import proofs.«135385_j52905407152435_2_alg».proof.Proof.LibReal
import Idealize.ShloMosaic.Lib.ReduceAll
import Idealize.ShloMosaic.Lib.ValueIdx

/-!
# The precondition read back: every float input is an array of real numbers

The precondition is the conjunction, over the seven float arguments a, of "every entry of |a| < +∞":
the comparison of max a (−a) with the word of +∞, entry by entry, reduced by `and` over all axes from 1,
and the seven answers joined by `and`. The whole being 1, each reduction is 1, so each comparison is 1 at
every index, and an extended real whose absolute value is below +∞ is a real number.
-/

noncomputable section

namespace Cert.Sage.Finite

open Idealize.ShloMosaic Idealize.SL.Sem Cert.GinMath
open Cert.Pre_finite_inputs

/-- The shape of rank 0 has one index. -/
instance subsingleton_scalar_idx : Subsingleton S_.Idx := ⟨fun _ _ => funext fun d => d.elim0⟩

/-- One entry: the comparison of |a| with the word of +∞ broadcast over the shape, answered 1 at i, says a i is real. -/
theorem entry_real {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    IsReal (a i) :=
  isReal_of_cmp_abs_lt_inf h

/-- One array: the comparisons reduced by `and` over all axes, answered 1, say every entry is real. -/
theorem array_real {s : Shape} {axes : List (Fin s.rank)} (hb : S_.BroadcastsInDim s (![] : Fin 0 → Fin s.rank))
    (hr : s.ReducesTo axes S_) (hu : 0 < S_.numel) (a : FVec Ideal s .f32) (init : IVec S_ 1) (j : S_.Idx)
    (h : Host.reduce IntOp.andi
        (cmpf .olt (Host.absf a) (broadcastInDim s ![] hb (constant (F := Ideal) S_ .f32 0x7F800000#32))) init hr hu j = 1#1)
    (i : s.Idx) : IsReal (a i) :=
  entry_real hb a i (Host.reduce_andi_all _ init hr hu j h i)

variable [hF : Cert.Pre_finite_inputs.Facts]

/-- The predicate answered 1 says each of its seven float arguments is an array of real numbers. -/
theorem reals_of_fn (a0 : FVec Ideal S150000x512 .f32) (a1 a2 : IVec S400000 32) (a3 a4 : IVec S160000 32)
    (a5 : FVec Ideal S256x512 .f32) (a6 : FVec Ideal S256 .f32) (a7 : FVec Ideal S256x512 .f32)
    (a8 : FVec Ideal S20x256 .f32) (a9 : FVec Ideal S20 .f32) (a10 : FVec Ideal S20x256 .f32)
    (h : Cert.Pre_finite_inputs.fn (F := Ideal) a0 a1 a2 a3 a4 a5 a6 a7 a8 a9 a10 = fun _ => 1#1) :
    (∀ i, IsReal (a0 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) := by
  have e := congrFun h ValueIdx.ix0
  dsimp only [Cert.Pre_finite_inputs.fn, Cert.Pre_finite_inputs.fn_part1, andi] at e
  simp only [IntOp.andi_eq_one] at e
  obtain ⟨⟨⟨⟨⟨⟨e0, e5⟩, e6⟩, e7⟩, e8⟩, e9⟩, e10⟩ := e
  exact ⟨array_real _ _ _ a0 _ _ e0, array_real _ _ _ a5 _ _ e5, array_real _ _ _ a6 _ _ e6, array_real _ _ _ a7 _ _ e7,
    array_real _ _ _ a8 _ _ e8, array_real _ _ _ a9 _ _ e9, array_real _ _ _ a10 _ _ e10⟩

/-- The precondition of the idealized kernel says each of its seven float argument arrays is real, on every device. -/
theorem reals_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i)) :=
  reals_of_fn _ _ _ _ _ _ _ _ _ _ _ (h c)

end Cert.Sage.Finite

end
-- ==== Proof.Bridge.lean ====
import proofs.«135385_j52905407152435_2_alg».proof.Proof.KValue
import proofs.«135385_j52905407152435_2_alg».proof.Proof.Algebra
import proofs.«135385_j52905407152435_2_alg».proof.Proof.Finite

/-!
# Under the precondition the program's result is the network

Every float input is finite, so the feature table, the transposed projections, the bias and the edge counts are
real numbers, and so are the hidden features; projecting before or after the mean then gives the same layer.
-/

set_option maxRecDepth 16384

noncomputable section

namespace Cert.Sage.Chain

open Idealize.ShloMosaic Idealize.ShloMosaic.TcCoe Idealize.ShloMosaic.ValueIdx Idealize.SL.Sem
open Cert.KernelIdeal Cert.KernelIdeal.Gen Cert.Sage Cert.GinMath

variable (m : (ℓ : Loc nD τ sig) → Buf (Elt Ideal) ℓ) (c : Dev nD)

/-- The word of 1.0 is a real number. -/
theorem isReal_w1 : IsReal w1 := ⟨1, ofBits_one⟩

/-- The number of edges landing on a target — a sum of ones from zero — is a real number. -/
theorem cnt1_real (i : S30000.Idx) : IsReal (cnt1 m c i) :=
  isReal_scatterAdd _ _ (fun _ => isReal_w0) _ _ (fun _ => isReal_w1) i
theorem cnt2_real (i : S8192.Idx) : IsReal (cnt2 m c i) :=
  isReal_scatterAdd _ _ (fun _ => isReal_w0) _ _ (fun _ => isReal_w1) i

/-- Under the precondition the program's result is the log-softmax of the second layer over the first layer's
    hidden features, each layer averaging the source rows and then projecting. -/
theorem kernel_result (ρ : Dev nD → PrngReg) (hpre : Cert.Pre_KernelIdeal m) :
    W8 m ρ c (Proc.devRef .tc main_v43)
      = lsm (out2 (hid (aX m c) (s1col m c) (d1col m c) (cnt1 m c) (tWl1 m c) (aB1 m c) (tWr1 m c))
          (s2col m c) (d2col m c) (cnt2 m c) (tWl2 m c) (aB2 m c) (tWr2 m c)) := by
  obtain ⟨r0, r5, r6, r7, r8, r9, r10⟩ := Cert.Sage.Finite.reals_of_pre m hpre c
  have hWl1 : ∀ i, IsReal (tWl1 m c i) := fun j => isReal_transpose _ _ _ _ r5 j
  have hWr1 : ∀ i, IsReal (tWr1 m c i) := fun j => isReal_transpose _ _ _ _ r7 j
  have hWl2 : ∀ i, IsReal (tWl2 m c i) := fun j => isReal_transpose _ _ _ _ r8 j
  rw [result_eq m c ρ, khid_eq _ _ _ _ _ _ _ r0 hWl1 (cnt1_real m c),
    kout2_eq _ _ _ _ _ _ _ (isReal_hid _ _ _ _ _ _ _ r0 (cnt1_real m c) hWl1 r6 hWr1) hWl2 (cnt2_real m c)]

end Cert.Sage.Chain

end
-- ==== Proof.RefLayers.lean ====
import proofs.«135385_j52905407152435_2_alg».proof.Proof.RefReadP
import proofs.«135385_j52905407152435_2_alg».proof.Proof.Spec
import proofs.«135385_j52905407152435_2_alg».proof.Proof.LibRowIndex
import proofs.«135385_j52905407152435_2_alg».proof.Proof.LibEdgeSum

/-!
# The reference's two layers are the specification's two layers

The reference computes each layer as: gather the source rows of the edges, add them into the rows of their
targets (a scatter-add into zeros), divide each row by max (count) 1, multiply by the transposed left weight
matrix, add the bias, and add the target's own row times the transposed right weight matrix. Read at an entry
(p, q) this is the specification's layer `convAt`: the scatter-add at (p, k) is the sum over the edges landing on p of
the gathered rows at column k, a gathered row is the table's row at the clamped source index, and the leading
slice of the table has the table's own rows. The first layer is followed by max (·) 0, which gives `hid`;
the second layer reads the first layer's array and gives `out2`.
-/

noncomputable section

namespace Cert.Sage.Ref

open Cert.ReferenceIdeal Cert.ReferenceIdeal.Gen Cert.ReferenceIdeal.Read
open Idealize.ShloMosaic Idealize.ShloMosaic.ValueIdx Cert.RowIndex Cert.EdgeSum
open scoped BigOperators

variable (x0 : (⟨S150000x512, .f32⟩ : BufTy).Contents (Elt Ideal))
  (x1 x2 : (⟨S400000, .i32⟩ : BufTy).Contents (Elt Ideal))
  (x3 x4 : (⟨S160000, .i32⟩ : BufTy).Contents (Elt Ideal))
  (x5 : (⟨S256x512, .f32⟩ : BufTy).Contents (Elt Ideal))
  (x6 : (⟨S256, .f32⟩ : BufTy).Contents (Elt Ideal))
  (x7 : (⟨S256x512, .f32⟩ : BufTy).Contents (Elt Ideal))
  (x8 : (⟨S20x256, .f32⟩ : BufTy).Contents (Elt Ideal))
  (x9 : (⟨S20, .f32⟩ : BufTy).Contents (Elt Ideal))
  (x10 : (⟨S20x256, .f32⟩ : BufTy).Contents (Elt Ideal))

/-! ## The dimension numbers are those of a gather of rows and of a scatter of rows -/

theorem gather1_dims : gather_S150000x512_S400000x1_S400000x512_1_0_n_n_0_1_1512
    = rowGatherDims 150000 400000 512 Facts₀.gather_S150000x512_S400000x1_S400000x512_1_0_n_n_0_1_1512_wf := rfl

theorem scatter1_dims : scatter_S30000x512_S400000x1_S400000x512_1_0_0_1
    = rowScatterDims 30000 400000 512 Facts₀.scatter_S30000x512_S400000x1_S400000x512_1_0_0_1_wf := rfl

theorem gather2_dims : gather_S30000x256_S160000x1_S160000x256_1_0_n_n_0_1_1256
    = rowGatherDims 30000 160000 256 Facts₀.gather_S30000x256_S160000x1_S160000x256_1_0_n_n_0_1_1256_wf := rfl

theorem scatter2_dims : scatter_S8192x256_S160000x1_S160000x256_1_0_0_1
    = rowScatterDims 8192 160000 256 Facts₀.scatter_S8192x256_S160000x1_S160000x256_1_0_0_1_wf := rfl

/-! ## The first layer's mean -/

/-- The gathered source rows: edge e's row is the table's row at the clamped source index. -/
theorem gather1_apply (e : Fin 400000) (k : Fin 512) :
    val_main_v7 (F := Ideal) x0 x1 (ix2 e k)
      = x0 (ix2 (clampRow 150000 (by norm_num) (val_main_v6 (F := Ideal) x1 (ix2 e (0 : Fin 1)))) k) := by
  unfold val_main_v7
  rw [gather1_dims]
  exact rowGather_apply (by norm_num) _ x0 (val_main_v6 (F := Ideal) x1) e k

/-- The array the rows are added into is zero everywhere. -/
theorem zero1_apply (i : S30000x512.Idx) : val_main_v8 (F := Ideal) i = w0 := by
  rw [val_main_v8_apply, val_main_cst_apply]
  rfl

/-- The aggregated rows: at (p, k) the sum over the edges landing on p of their source rows at column k. -/
theorem agg1_apply (p : Fin 30000) (k : Fin 512) :
    val_main_v10 (F := Ideal) x0 x1 x2 (ix2 p k)
      = w0 + ∑ e ∈ landing (val_main_v9 (F := Ideal) x2) p.val,
          x0 (ix2 (clampRow 150000 (by norm_num) (val_main_v6 (F := Ideal) x1 (ix2 e (0 : Fin 1)))) k) := by
  unfold val_main_v10
  rw [scatter1_dims]
  refine (rowScatterAdd_apply _ (val_main_v8 (F := Ideal)) (val_main_v9 (F := Ideal) x2)
    (val_main_v7 (F := Ideal) x0 x1) p k).trans ?_
  rw [zero1_apply]
  unfold landing
  exact congrArg (w0 + ·) (Finset.sum_congr rfl fun e _ => gather1_apply x0 x1 e k)

/-- The divisor at (p, k): the larger of the count of p and 1. -/
theorem den1_apply (p : Fin 30000) (k : Fin 512) :
    val_main_v18 (F := Ideal) x2 (ix2 p k) = max (val_main_v14 (F := Ideal) x2 (ix1 p)) w1 := by
  have e1 : idx_main_v17 (idx_main_v18 (ix2 p k)) = ix1 p :=
    funext fun a => Fin.ext (by match a with | ⟨0, _⟩ => rfl)
  rw [val_main_v18_apply, val_main_v17_apply, val_main_v16_apply, val_main_v15_apply, val_main_cst_3_apply, e1]
  rfl

/-- The mean of the source rows of the edges landing on p, at column k. -/
theorem mean1_apply (p : Fin 30000) (k : Fin 512) :
    val_main_v19 (F := Ideal) x0 x1 x2 (ix2 p k)
      = Ideal.div (w0 + ∑ e ∈ landing (val_main_v9 (F := Ideal) x2) p.val,
            x0 (ix2 (clampRow 150000 (by norm_num) (val_main_v6 (F := Ideal) x1 (ix2 e (0 : Fin 1)))) k))
          (max (val_main_v14 (F := Ideal) x2 (ix1 p)) w1) := by
  rw [val_main_v19_apply, agg1_apply, den1_apply]
  rfl

/-! ## The first layer -/

/-- The first layer followed by max (·) 0, at an entry. -/
theorem layer1_apply (p : Fin 30000) (q : Fin 256) :
    val_main_v28 (F := Ideal) x0 x1 x2 x5 x6 x7 (ix2 p q)
      = hid x0 (val_main_v6 (F := Ideal) x1) (val_main_v9 (F := Ideal) x2) (val_main_v14 (F := Ideal) x2)
          (val_main_v20 (F := Ideal) x5) x6 (val_main_v25 (F := Ideal) x7) (ix2 p q) := by
  have el : ∀ k : Fin 512, lidx_main_v21 (ix2 p q) k = ix2 p k := fun k =>
    funext fun a => Fin.ext (by match a with | ⟨0, _⟩ => rfl | ⟨1, _⟩ => rfl)
  have er : ∀ k : Fin 512, ridx_main_v21 (ix2 p q) k = ix2 k q := fun k =>
    funext fun a => Fin.ext (by match a with | ⟨0, _⟩ => rfl | ⟨1, _⟩ => rfl)
  have el' : ∀ k : Fin 512, lidx_main_v26 (ix2 p q) k = ix2 p k := fun k =>
    funext fun a => Fin.ext (by match a with | ⟨0, _⟩ => rfl | ⟨1, _⟩ => rfl)
  have er' : ∀ k : Fin 512, ridx_main_v26 (ix2 p q) k = ix2 k q := fun k =>
    funext fun a => Fin.ext (by match a with | ⟨0, _⟩ => rfl | ⟨1, _⟩ => rfl)
  have eb : idx_main_v22 (idx_main_v23 (ix2 p q)) = ix1 q :=
    funext fun a => Fin.ext (by match a with | ⟨0, _⟩ => rfl)
  have es : ∀ k : Fin 512, idx_main_v0 (ix2 p k)
      = ix2 (Fin.castLE (by norm_num : 30000 ≤ 150000) p) k := fun k =>
    funext fun a => Fin.ext (by match a with | ⟨0, _⟩ => rfl | ⟨1, _⟩ => rfl)
  rw [hid_apply, val_main_v28_apply, val_main_v27_apply, val_main_v24_apply, val_main_v21_apply,
    val_main_v23_apply, val_main_v22_apply, val_main_v26_apply, val_main_call0_v0_apply,
    val_main_call0_cst_apply]
  simp only [el, er, el', er', eb, mean1_apply, val_main_v0_apply, es]
  rfl

/-- The first layer's array is the specification's hidden features. -/
theorem layer1_eq :
    val_main_v28 (F := Ideal) x0 x1 x2 x5 x6 x7
      = hid x0 (val_main_v6 (F := Ideal) x1) (val_main_v9 (F := Ideal) x2) (val_main_v14 (F := Ideal) x2)
          (val_main_v20 (F := Ideal) x5) x6 (val_main_v25 (F := Ideal) x7) := by
  funext i
  obtain ⟨p, q, rfl⟩ : ∃ (p : Fin 30000) (q : Fin 256), i = ix2 p q := ⟨i 0, i 1, eq_ix2 i⟩
  exact layer1_apply x0 x1 x2 x5 x6 x7 p q

/-! ## The second layer's mean, over the first layer's array -/

/-- The gathered source rows of the second layer. -/
theorem gather2_apply (e : Fin 160000) (k : Fin 256) :
    val_main_v36 (F := Ideal) x0 x1 x2 x3 x5 x6 x7 (ix2 e k)
      = val_main_v28 (F := Ideal) x0 x1 x2 x5 x6 x7
          (ix2 (clampRow 30000 (by norm_num) (val_main_v35 (F := Ideal) x3 (ix2 e (0 : Fin 1)))) k) := by
  unfold val_main_v36
  rw [gather2_dims]
  exact rowGather_apply (by norm_num) _ (val_main_v28 (F := Ideal) x0 x1 x2 x5 x6 x7) (val_main_v35 (F := Ideal) x3) e k

theorem zero2_apply (i : S8192x256.Idx) : val_main_v37 (F := Ideal) i = w0 := by
  rw [val_main_v37_apply, val_main_cst_6_apply]
  rfl

/-- The aggregated rows of the second layer. -/
theorem agg2_apply (p : Fin 8192) (k : Fin 256) :
    val_main_v39 (F := Ideal) x0 x1 x2 x3 x4 x5 x6 x7 (ix2 p k)
      = w0 + ∑ e ∈ landing (val_main_v38 (F := Ideal) x4) p.val,
          val_main_v28 (F := Ideal) x0 x1 x2 x5 x6 x7
            (ix2 (clampRow 30000 (by norm_num) (val_main_v35 (F := Ideal) x3 (ix2 e (0 : Fin 1)))) k) := by
  unfold val_main_v39
  rw [scatter2_dims]
  refine (rowScatterAdd_apply _ (val_main_v37 (F := Ideal)) (val_main_v38 (F := Ideal) x4)
    (val_main_v36 (F := Ideal) x0 x1 x2 x3 x5 x6 x7) p k).trans ?_
  rw [zero2_apply]
  unfold landing
  exact congrArg (w0 + ·) (Finset.sum_congr rfl fun e _ => gather2_apply x0 x1 x2 x3 x5 x6 x7 e k)

/-- The divisor of the second layer. -/
theorem den2_apply (p : Fin 8192) (k : Fin 256) :
    val_main_v47 (F := Ideal) x4 (ix2 p k) = max (val_main_v43 (F := Ideal) x4 (ix1 p)) w1 := by
  have e1 : idx_main_v46 (idx_main_v47 (ix2 p k)) = ix1 p :=
    funext fun a => Fin.ext (by match a with | ⟨0, _⟩ => rfl)
  rw [val_main_v47_apply, val_main_v46_apply, val_main_v45_apply, val_main_v44_apply, val_main_cst_9_apply, e1]
  rfl

/-- The mean of the second layer. -/
theorem mean2_apply (p : Fin 8192) (k : Fin 256) :
    val_main_v48 (F := Ideal) x0 x1 x2 x3 x4 x5 x6 x7 (ix2 p k)
      = Ideal.div (w0 + ∑ e ∈ landing (val_main_v38 (F := Ideal) x4) p.val,
            val_main_v28 (F := Ideal) x0 x1 x2 x5 x6 x7
              (ix2 (clampRow 30000 (by norm_num) (val_main_v35 (F := Ideal) x3 (ix2 e (0 : Fin 1)))) k))
          (max (val_main_v43 (F := Ideal) x4 (ix1 p)) w1) := by
  rw [val_main_v48_apply, agg2_apply, den2_apply]
  rfl

/-! ## The second layer -/

/-- The second layer over the first layer's array, at an entry. -/
theorem layer2_apply (p : Fin 8192) (q : Fin 20) :
    val_main_v56 (F := Ideal) x0 x1 x2 x3 x4 x5 x6 x7 x8 x9 x10 (ix2 p q)
      = out2 (val_main_v28 (F := Ideal) x0 x1 x2 x5 x6 x7) (val_main_v35 (F := Ideal) x3)
          (val_main_v38 (F := Ideal) x4) (val_main_v43 (F := Ideal) x4) (val_main_v49 (F := Ideal) x8) x9
          (val_main_v54 (F := Ideal) x10) (ix2 p q) := by
  have el : ∀ k : Fin 256, lidx_main_v50 (ix2 p q) k = ix2 p k := fun k =>
    funext fun a => Fin.ext (by match a with | ⟨0, _⟩ => rfl | ⟨1, _⟩ => rfl)
  have er : ∀ k : Fin 256, ridx_main_v50 (ix2 p q) k = ix2 k q := fun k =>
    funext fun a => Fin.ext (by match a with | ⟨0, _⟩ => rfl | ⟨1, _⟩ => rfl)
  have el' : ∀ k : Fin 256, lidx_main_v55 (ix2 p q) k = ix2 p k := fun k =>
    funext fun a => Fin.ext (by match a with | ⟨0, _⟩ => rfl | ⟨1, _⟩ => rfl)
  have er' : ∀ k : Fin 256, ridx_main_v55 (ix2 p q) k = ix2 k q := fun k =>
    funext fun a => Fin.ext (by match a with | ⟨0, _⟩ => rfl | ⟨1, _⟩ => rfl)
  have eb : idx_main_v51 (idx_main_v52 (ix2 p q)) = ix1 q :=
    funext fun a => Fin.ext (by match a with | ⟨0, _⟩ => rfl)
  have es : ∀ k : Fin 256, idx_main_v29 (ix2 p k)
      = ix2 (Fin.castLE (by norm_num : 8192 ≤ 30000) p) k := fun k =>
    funext fun a => Fin.ext (by match a with | ⟨0, _⟩ => rfl | ⟨1, _⟩ => rfl)
  rw [out2_apply, val_main_v56_apply, val_main_v53_apply, val_main_v50_apply, val_main_v52_apply,
    val_main_v51_apply, val_main_v55_apply]
  simp only [el, er, el', er', eb, mean2_apply, val_main_v29_apply, es]
  rfl

/-- The reference's scores are the specification's second layer over its hidden features. -/
theorem ref_layers :
    val_main_v56 (F := Ideal) x0 x1 x2 x3 x4 x5 x6 x7 x8 x9 x10
      = out2
          (hid x0 (val_main_v6 (F := Ideal) x1) (val_main_v9 (F := Ideal) x2) (val_main_v14 (F := Ideal) x2)
            (val_main_v20 (F := Ideal) x5) x6 (val_main_v25 (F := Ideal) x7))
          (val_main_v35 (F := Ideal) x3) (val_main_v38 (F := Ideal) x4) (val_main_v43 (F := Ideal) x4)
          (val_main_v49 (F := Ideal) x8) x9 (val_main_v54 (F := Ideal) x10) := by
  rw [← layer1_eq]
  funext i
  obtain ⟨p, q, rfl⟩ : ∃ (p : Fin 8192) (q : Fin 20), i = ix2 p q := ⟨i 0, i 1, eq_ix2 i⟩
  exact layer2_apply x0 x1 x2 x3 x4 x5 x6 x7 x8 x9 x10 p q

end Cert.Sage.Ref

end
-- ==== Proof.RefTail.lean ====
import proofs.«135385_j52905407152435_2_alg».proof.Proof.RefReadP
import proofs.«135385_j52905407152435_2_alg».proof.Proof.Spec
import Idealize.ShloMosaic.PureOps.Reduce
import Idealize.ShloMosaic.PureOps.Ideal.Laws
import Idealize.ShloMosaic.Lib.ValueIdx

/-!
# The reference's last stage is the log-softmax of its class scores

After the scores o (an [8192, 20] array) the reference takes, row by row, the maximum m of the row folded from
the word of −∞ and joined once more with that word (max ⊥ m = m), subtracts it, exponentiates, sums the row
from the word of 0.0 (0 + Σ = Σ), takes the logarithm, and subtracts that from the shifted scores:
at (p, q) it is (o p q − m p) − log Σ_j exp (o p j − m p), the log-softmax of row p at column q.
The scores themselves are never opened.
-/

noncomputable section

namespace Cert.Sage.Ref

open Cert.ReferenceIdeal Cert.ReferenceIdeal.Read Idealize.ShloMosaic Idealize.ShloMosaic.ValueIdx
open scoped BigOperators

/-- The word of −∞ denotes ⊥. -/
theorem ofBits_neg_inf : Ideal.ofBits .f32 0xFF800000#32 = ⊥ := by
  simp [Ideal.ofBits, Ideal.ieee]

/-- A maximum over axis 1 of an [8192, 20] array, at row p: the fold of max from the initial value over the row. -/
theorem reduce_max_row (o : (⟨2, ![8192, 20]⟩ : Shape).Idx → EReal) (init : (⟨0, ![]⟩ : Shape).Idx → EReal)
    (h' : (⟨2, ![8192, 20]⟩ : Shape).ReducesTo [1] ⟨1, ![8192]⟩) (hu : 0 < (⟨0, ![]⟩ : Shape).numel) (p : Fin 8192) :
    Host.reduce (FloatOps.maximumf (F := Ideal) (φ := .f32)) o init h' hu (ix1 p)
      = (Finset.univ : Finset (Fin 20)).fold max (init (Shape.Idx.first hu)) (fun k => o (ix2 p k)) := by
  have h : (⟨2, ![8192, 20]⟩ : Shape).Reduces [1] ⟨1, ![8192]⟩ := by decide
  rw [Host.reduce_eq_fold_single _ o init h' h hu (ix1 p)]
  have hl : (o ∘ h.lift (ix1 p)) = fun k : Fin 20 => o (ix2 p k) :=
    funext fun k => congrArg o (funext fun a => Fin.ext (by match a with | ⟨0, _⟩ => rfl | ⟨1, _⟩ => rfl))
  rw [hl]
  rfl

section Tail

variable (x0 : (⟨S150000x512, .f32⟩ : BufTy).Contents (Elt Ideal)) (x1 x2 : (⟨S400000, .i32⟩ : BufTy).Contents (Elt Ideal))
  (x3 x4 : (⟨S160000, .i32⟩ : BufTy).Contents (Elt Ideal)) (x5 : (⟨S256x512, .f32⟩ : BufTy).Contents (Elt Ideal))
  (x6 : (⟨S256, .f32⟩ : BufTy).Contents (Elt Ideal)) (x7 : (⟨S256x512, .f32⟩ : BufTy).Contents (Elt Ideal))
  (x8 : (⟨S20x256, .f32⟩ : BufTy).Contents (Elt Ideal)) (x9 : (⟨S20, .f32⟩ : BufTy).Contents (Elt Ideal))
  (x10 : (⟨S20x256, .f32⟩ : BufTy).Contents (Elt Ideal))

/-- The scores, as an array of extended reals; never opened. -/
local notation "scores" => val_main_v56 (F := Ideal) x0 x1 x2 x3 x4 x5 x6 x7 x8 x9 x10

/-- The maximum of row p, joined with −∞, is the row's maximum. -/
theorem max_at (p : Fin 8192) :
    val_main_call1_v2 (F := Ideal) x0 x1 x2 x3 x4 x5 x6 x7 x8 x9 x10 (ix1 p) = rowMax (fun k => scores (ix2 p k)) := by
  have e0 : val_main_call1_v0 (F := Ideal) x0 x1 x2 x3 x4 x5 x6 x7 x8 x9 x10 (ix1 p)
      = (Finset.univ : Finset (Fin 20)).fold max (Ideal.ofBits .f32 0xFF800000#32) (fun k => scores (ix2 p k)) := by
    unfold val_main_call1_v0
    exact reduce_max_row _ _ _ _ p
  rw [val_main_call1_v2_apply, val_main_call1_v1_apply, val_main_call1_cst_0_apply, e0]
  show max (Ideal.ofBits .f32 0xFF800000#32) (rowMax fun k => scores (ix2 p k)) = rowMax fun k => scores (ix2 p k)
  rw [ofBits_neg_inf]
  exact max_eq_right bot_le

/-- The row's maximum broadcast back over the row. -/
theorem shift_at (p : Fin 8192) (j : Fin 20) :
    val_main_call1_v4 (F := Ideal) x0 x1 x2 x3 x4 x5 x6 x7 x8 x9 x10 (ix2 p j) = rowMax (fun k => scores (ix2 p k)) := by
  have e : idx_main_call1_v3 (idx_main_call1_v4 (ix2 p j)) = ix1 p :=
    funext fun a => Fin.ext (by match a with | ⟨0, _⟩ => rfl)
  rw [val_main_call1_v4_apply, val_main_call1_v3_apply, e]
  exact max_at x0 x1 x2 x3 x4 x5 x6 x7 x8 x9 x10 p

/-- The scores less their row's maximum. -/
theorem centred_at (p : Fin 8192) (j : Fin 20) :
    val_main_call1_v5 (F := Ideal) x0 x1 x2 x3 x4 x5 x6 x7 x8 x9 x10 (ix2 p j) = scores (ix2 p j) - rowMax (fun k => scores (ix2 p k)) := by
  rw [val_main_call1_v5_apply, shift_at]
  rfl

/-- The row sum of the exponentials, the initial word being zero. -/
theorem sumexp_at (p : Fin 8192) :
    val_main_call1_v7 (F := Ideal) x0 x1 x2 x3 x4 x5 x6 x7 x8 x9 x10 (ix1 p)
      = ∑ k : Fin 20, Ideal.exp (scores (ix2 p k) - rowMax (fun k => scores (ix2 p k))) := by
  rw [val_main_call1_v7_apply, val_main_call1_cst_1_apply]
  show Ideal.ofBits .f32 0x00000000#32 + _ = _
  rw [Ideal.ofBits_zero_f32, zero_add]
  refine Finset.sum_congr rfl fun k _ => ?_
  have e : idx_main_call1_v7 (ix1 p) k = ix2 p k :=
    funext fun a => Fin.ext (by match a with | ⟨0, _⟩ => rfl | ⟨1, _⟩ => rfl)
  rw [e, val_main_call1_v6_apply, centred_at]
  exact Ideal.hostUnary_exp_def _

/-- The logarithm of the row sum, broadcast back over the row. -/
theorem logsum_at (p : Fin 8192) (q : Fin 20) :
    val_main_call1_v10 (F := Ideal) x0 x1 x2 x3 x4 x5 x6 x7 x8 x9 x10 (ix2 p q)
      = Ideal.log (∑ k : Fin 20, Ideal.exp (scores (ix2 p k) - rowMax (fun k => scores (ix2 p k)))) := by
  have e : idx_main_call1_v8 (idx_main_call1_v10 (ix2 p q)) = ix1 p :=
    funext fun a => Fin.ext (by match a with | ⟨0, _⟩ => rfl)
  rw [val_main_call1_v10_apply, val_main_call1_v9_apply, val_main_call1_v8_apply, e, sumexp_at]
  exact Ideal.hostUnary_log_def _

/-- The reference's result is the log-softmax along every row of its scores. -/
theorem ref_tail :
    Cert.ReferenceIdeal.Read.val_main_v57 (F := Ideal) x0 x1 x2 x3 x4 x5 x6 x7 x8 x9 x10
      = Cert.Sage.lsm (Cert.ReferenceIdeal.Read.val_main_v56 (F := Ideal) x0 x1 x2 x3 x4 x5 x6 x7 x8 x9 x10) := by
  funext i
  obtain ⟨p, q, rfl⟩ : ∃ (p : Fin 8192) (q : Fin 20), i = ix2 p q := ⟨i 0, i 1, eq_ix2 i⟩
  rw [val_main_v57_apply, centred_at, logsum_at, lsm_apply]
  rfl

end Tail

end Cert.Sage.Ref

end
-- ==== Proof.lean ====
/-
  A two-layer mean-aggregating graph convolution with a log-softmax head: the kernel against its jnp reference,
  equal over the extended reals under the precondition that every float input is finite.

  Per layer, target p receives  (Σ_{edges e landing on p} x[src e]) / max (count p) 1 · Wlᵀ + b + x[p] · Wrᵀ.
  The reference averages the gathered source rows and then projects the mean by Wlᵀ. The kernel projects every
  row of the source table once (a dense product in a region of its own), gathers and sums the projected rows,
  and divides by the count inside the layer's finishing region, which also adds the bias and the target's own
  projected row; the second projection is zero-padded from 20 to 128 columns and the product sliced back to 20.
  Projection is linear, so the two orders agree — over the reals: the table, the projection and the count must
  be real numbers, which is where the precondition enters (and, for the second layer, that the hidden features,
  a maximum with 0 of sums and products and one quotient by a number ≥ 1 of real numbers, are real). The
  gather clamps and the scatter-add drops out-of-range edge indices in the same way on both sides, and the edge
  counts are one and the same term in both programs, so neither is ever opened. The kernel's head takes the
  row maximum and the row sum with lane reductions, the reference with host reductions and one more maximum
  with −∞; both are the log-softmax of the row.

  The three frames are the generated ones (the reference's is its generated run with the result dropped);
  the idealization rewrote nothing, so `preserves` is trivial. The kernel's run with its result named follows
  the generated frame's launch; the contents of the buffers are read boundary by boundary from the launch
  memory; each region's output array is its body's arithmetic over the blocks, put together over the grid.
-/
import proofs.«135385_j52905407152435_2_alg».proof.Defs
import proofs.«135385_j52905407152435_2_alg».proof.Proof.Gen.Kernel
import proofs.«135385_j52905407152435_2_alg».proof.Proof.Gen.Kernel.Skeleton
import proofs.«135385_j52905407152435_2_alg».proof.Proof.Gen.Kernel.Launch
import proofs.«135385_j52905407152435_2_alg».proof.Proof.Gen.Kernel.Points
import proofs.«135385_j52905407152435_2_alg».proof.Proof.Gen.Kernel.Frame
import proofs.«135385_j52905407152435_2_alg».proof.Proof.Gen.KernelIdeal
import proofs.«135385_j52905407152435_2_alg».proof.Proof.Gen.KernelIdeal.Skeleton
import proofs.«135385_j52905407152435_2_alg».proof.Proof.Gen.KernelIdeal.Launch
import proofs.«135385_j52905407152435_2_alg».proof.Proof.Gen.KernelIdeal.Points
import proofs.«135385_j52905407152435_2_alg».proof.Proof.Gen.KernelIdeal.Frame
import proofs.«135385_j52905407152435_2_alg».proof.Proof.Gen.ReferenceIdeal
import proofs.«135385_j52905407152435_2_alg».proof.Proof.Gen.Pre_finite_inputs
import proofs.«135385_j52905407152435_2_alg».proof.Proof.RefRunP
import proofs.«135385_j52905407152435_2_alg».proof.Proof.RefReadP
import proofs.«135385_j52905407152435_2_alg».proof.Proof.KRun
import proofs.«135385_j52905407152435_2_alg».proof.Proof.Bridge
import proofs.«135385_j52905407152435_2_alg».proof.Proof.RefLayers
import proofs.«135385_j52905407152435_2_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The two programs build the same index columns, counts and transposed matrices from the same arguments -/

section Agree

open Cert.Sage.Chain Cert.ReferenceIdeal.Read

variable (m : (ℓ : Loc Cert.KernelIdeal.nD Cert.KernelIdeal.τ Cert.KernelIdeal.sig) → Buf (Elt Ideal) ℓ)
  (c : Dev Cert.KernelIdeal.nD)

theorem e_s1 : val_main_v6 (F := Ideal) (aS1 m c) = s1col m c := rfl
theorem e_d1 : val_main_v9 (F := Ideal) (aD1 m c) = d1col m c := rfl
theorem e_c1 : val_main_v14 (F := Ideal) (aD1 m c) = cnt1 m c := rfl
theorem e_wl1 : val_main_v20 (F := Ideal) (aWl1 m c) = tWl1 m c := rfl
theorem e_wr1 : val_main_v25 (F := Ideal) (aWr1 m c) = tWr1 m c := rfl
theorem e_s2 : val_main_v35 (F := Ideal) (aS2 m c) = s2col m c := rfl
theorem e_d2 : val_main_v38 (F := Ideal) (aD2 m c) = d2col m c := rfl
theorem e_c2 : val_main_v43 (F := Ideal) (aD2 m c) = cnt2 m c := rfl
theorem e_wl2 : val_main_v49 (F := Ideal) (aWl2 m c) = tWl2 m c := rfl
theorem e_wr2 : val_main_v54 (F := Ideal) (aWr2 m c) = tWr2 m c := rfl

end Agree

/-! ## The value claim -/

/-- At the extended reals the kernel's result array ends at the network of its arguments (the run with the result
    named, the chain of boundaries, the regions' arrays, the exchange of mean and projection under finiteness), and
    the reference's at the same network of arguments that agree. -/
theorem algebraic : Cert.algebraic_KernelIdeal_ReferenceIdeal := by
  intro m ρ m' ρ' hpre hagree
  refine ⟨fun c => Cert.KernelIdeal.Gen.W8 m ρ c (Proc.devRef .tc Cert.KernelIdeal.main_v43),
    Cert.Sage.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v57_eq, h0, h1, h2, h3, h4, h5, h6, h7, h8, h9, h10,
    Cert.Sage.Ref.ref_tail, Cert.Sage.Ref.ref_layers]
  show _ = Cert.KernelIdeal.Gen.W8 m ρ c (Proc.devRef .tc Cert.KernelIdeal.main_v43)
  rw [Cert.Sage.Chain.kernel_result m c ρ hpre, ← e_s1 m c, ← e_d1 m c, ← e_c1 m c, ← e_wl1 m c, ← e_wr1 m c,
    ← e_s2 m c, ← e_d2 m c, ← e_c2 m c, ← e_wl2 m c, ← e_wr2 m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
